-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x28x28 : Shape := ⟨4, ![64, 256, 28, 28]⟩
abbrev S64x2x28x28 : Shape := ⟨4, ![64, 2, 28, 28]⟩
abbrev S_ : Shape := ⟨0, ![]⟩

class Facts : Prop where
  bcast_S_S64x256x28x28 : S_.BroadcastsInDim S64x256x28x28 (![] : Fin 0 → Fin S64x256x28x28.rank)
  reducesTo_S64x256x28x28_S_d0_1_2_3 : S64x256x28x28.ReducesTo [0, 1, 2, 3] S_
  h_S_ : 0 < S_.numel
  bcast_S_S64x2x28x28 : S_.BroadcastsInDim S64x2x28x28 (![] : Fin 0 → Fin S64x2x28x28.rank)
  reducesTo_S64x2x28x28_S_d0_1_2_3 : S64x2x28x28.ReducesTo [0, 1, 2, 3] S_

variable [Facts]

def fn_part1 {F : FTy → Type} [FloatOps F] (main_arg4 : FVec F S64x2x28x28 .f32) (main_arg5 : FVec F S64x2x28x28 .f32) (main_v13 : IVec S_ 1) (main_v16 : IVec S64x256x28x28 1) : IVec S_ 1 :=
  let main_c_5 : IVec S_ 1 := constantI S_ 1 1#1
  let main_v17 : IVec S_ 1 := (fun x v => Host.reduce IntOp.andi x v reducesTo_S64x256x28x28_S_d0_1_2_3 h_S_) main_v16 main_c_5
  let main_v18 : IVec S_ 1 := andi main_v13 main_v17
  let main_v19 : FVec F S64x2x28x28 .f32 := Host.absf main_arg4
  let main_cst_6 : FVec F S_ .f32 := constant S_ .f32 0x7F800000#32
  let main_v20 : FVec F S64x2x28x28 .f32 := broadcastInDim S64x2x28x28 ![] bcast_S_S64x2x28x28 main_cst_6
  let main_v21 : IVec S64x2x28x28 1 := cmpf .olt main_v19 main_v20
  let main_c_7 : IVec S_ 1 := constantI S_ 1 1#1
  let main_v22 : IVec S_ 1 := (fun x v => Host.reduce IntOp.andi x v reducesTo_S64x2x28x28_S_d0_1_2_3 h_S_) main_v21 main_c_7
  let main_v23 : IVec S_ 1 := andi main_v18 main_v22
  let main_v24 : FVec F S64x2x28x28 .f32 := Host.absf main_arg5
  let main_cst_8 : FVec F S_ .f32 := constant S_ .f32 0x7F800000#32
  let main_v25 : FVec F S64x2x28x28 .f32 := broadcastInDim S64x2x28x28 ![] bcast_S_S64x2x28x28 main_cst_8
  let main_v26 : IVec S64x2x28x28 1 := cmpf .olt main_v24 main_v25
  let main_c_9 : IVec S_ 1 := constantI S_ 1 1#1
  let main_v27 : IVec S_ 1 := (fun x v => Host.reduce IntOp.andi x v reducesTo_S64x2x28x28_S_d0_1_2_3 h_S_) main_v26 main_c_9
  let main_v28 : IVec S_ 1 := andi main_v23 main_v27
  main_v28

def fn {F : FTy → Type} [FloatOps F] (main_arg0 : FVec F S64x256x28x28 .f32) (main_arg1 : FVec F S64x256x28x28 .f32) (main_arg2 : FVec F S64x256x28x28 .f32) (main_arg3 : FVec F S64x256x28x28 .f32) (main_arg4 : FVec F S64x2x28x28 .f32) (main_arg5 : FVec F S64x2x28x28 .f32) : IVec S_ 1 :=
  let main_v0 : FVec F S64x256x28x28 .f32 := Host.absf main_arg0
  let main_cst : FVec F S_ .f32 := constant S_ .f32 0x7F800000#32
  let main_v1 : FVec F S64x256x28x28 .f32 := broadcastInDim S64x256x28x28 ![] bcast_S_S64x256x28x28 main_cst
  let main_v2 : IVec S64x256x28x28 1 := cmpf .olt main_v0 main_v1
  let main_c : IVec S_ 1 := constantI S_ 1 1#1
  let main_v3 : IVec S_ 1 := (fun x v => Host.reduce IntOp.andi x v reducesTo_S64x256x28x28_S_d0_1_2_3 h_S_) main_v2 main_c
  let main_v4 : FVec F S64x256x28x28 .f32 := Host.absf main_arg1
  let main_cst_0 : FVec F S_ .f32 := constant S_ .f32 0x7F800000#32
  let main_v5 : FVec F S64x256x28x28 .f32 := broadcastInDim S64x256x28x28 ![] bcast_S_S64x256x28x28 main_cst_0
  let main_v6 : IVec S64x256x28x28 1 := cmpf .olt main_v4 main_v5
  let main_c_1 : IVec S_ 1 := constantI S_ 1 1#1
  let main_v7 : IVec S_ 1 := (fun x v => Host.reduce IntOp.andi x v reducesTo_S64x256x28x28_S_d0_1_2_3 h_S_) main_v6 main_c_1
  let main_v8 : IVec S_ 1 := andi main_v3 main_v7
  let main_v9 : FVec F S64x256x28x28 .f32 := Host.absf main_arg2
  let main_cst_2 : FVec F S_ .f32 := constant S_ .f32 0x7F800000#32
  let main_v10 : FVec F S64x256x28x28 .f32 := broadcastInDim S64x256x28x28 ![] bcast_S_S64x256x28x28 main_cst_2
  let main_v11 : IVec S64x256x28x28 1 := cmpf .olt main_v9 main_v10
  let main_c_3 : IVec S_ 1 := constantI S_ 1 1#1
  let main_v12 : IVec S_ 1 := (fun x v => Host.reduce IntOp.andi x v reducesTo_S64x256x28x28_S_d0_1_2_3 h_S_) main_v11 main_c_3
  let main_v13 : IVec S_ 1 := andi main_v8 main_v12
  let main_v14 : FVec F S64x256x28x28 .f32 := Host.absf main_arg3
  let main_cst_4 : FVec F S_ .f32 := constant S_ .f32 0x7F800000#32
  let main_v15 : FVec F S64x256x28x28 .f32 := broadcastInDim S64x256x28x28 ![] bcast_S_S64x256x28x28 main_cst_4
  let main_v16 : IVec S64x256x28x28 1 := cmpf .olt main_v14 main_v15
  fn_part1 (F := F) main_arg4 main_arg5 main_v13 main_v16
-- ==== Kernel.lean ====
abbrev S64x256x28x28 : Shape := ⟨4, ![64, 256, 28, 28]⟩
abbrev S64x2x28x28 : Shape := ⟨4, ![64, 2, 28, 28]⟩
abbrev S64x256x784 : Shape := ⟨3, ![64, 256, 784]⟩
abbrev S64x2x784 : Shape := ⟨3, ![64, 2, 784]⟩
abbrev S1x128 : Shape := ⟨2, ![1, 128]⟩
abbrev S1x256x784 : Shape := ⟨3, ![1, 256, 784]⟩
abbrev S1x2x784 : Shape := ⟨3, ![1, 2, 784]⟩
abbrev S256x784 : Shape := ⟨2, ![256, 784]⟩
abbrev S784x784 : Shape := ⟨2, ![784, 784]⟩
abbrev S784 : Shape := ⟨1, ![784]⟩
abbrev S784x1 : Shape := ⟨2, ![784, 1]⟩
abbrev S1x784 : Shape := ⟨2, ![1, 784]⟩
abbrev S2x784 : Shape := ⟨2, ![2, 784]⟩
abbrev S2x1 : Shape := ⟨2, ![2, 1]⟩
abbrev S1 : Shape := ⟨1, ![1]⟩
abbrev S1x1 : Shape := ⟨2, ![1, 1]⟩
abbrev S_ : Shape := ⟨0, ![]⟩

abbrev nBuf : Space → Nat
  | .hbm => 26
  | .vmem => 14
  | .smem => 0
  | _ => 0

abbrev bufTy : (tb : Table) → Fin (tcTables nBuf tb) → BufTy
  | .hbm, ⟨0, _⟩ => ⟨S64x256x28x28, .f32⟩
  | .hbm, ⟨1, _⟩ => ⟨S64x256x28x28, .f32⟩
  | .hbm, ⟨2, _⟩ => ⟨S64x256x28x28, .f32⟩
  | .hbm, ⟨3, _⟩ => ⟨S64x256x28x28, .f32⟩
  | .hbm, ⟨4, _⟩ => ⟨S64x2x28x28, .f32⟩
  | .hbm, ⟨5, _⟩ => ⟨S64x2x28x28, .f32⟩
  | .hbm, ⟨6, _⟩ => ⟨S64x256x784, .f32⟩
  | .hbm, ⟨7, _⟩ => ⟨S64x256x784, .f32⟩
  | .hbm, ⟨8, _⟩ => ⟨S64x256x784, .f32⟩
  | .hbm, ⟨9, _⟩ => ⟨S64x256x784, .f32⟩
  | .hbm, ⟨10, _⟩ => ⟨S64x2x784, .f32⟩
  | .hbm, ⟨11, _⟩ => ⟨S64x2x784, .f32⟩
  | .hbm, ⟨12, _⟩ => ⟨S1x128, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x256x784, .f32⟩
  | .local _ .vmem, ⟨1, _⟩ => ⟨S1x256x784, .f32⟩
  | .local _ .vmem, ⟨2, _⟩ => ⟨S1x256x784, .f32⟩
  | .local _ .vmem, ⟨3, _⟩ => ⟨S1x256x784, .f32⟩
  | .local _ .vmem, ⟨4, _⟩ => ⟨S1x256x784, .f32⟩
  | .local _ .vmem, ⟨5, _⟩ => ⟨S1x256x784, .f32⟩
  | .local _ .vmem, ⟨6, _⟩ => ⟨S1x256x784, .f32⟩
  | .local _ .vmem, ⟨7, _⟩ => ⟨S1x256x784, .f32⟩
  | .local _ .vmem, ⟨8, _⟩ => ⟨S1x2x784, .f32⟩
  | .local _ .vmem, ⟨9, _⟩ => ⟨S1x2x784, .f32⟩
  | .local _ .vmem, ⟨10, _⟩ => ⟨S1x2x784, .f32⟩
  | .local _ .vmem, ⟨11, _⟩ => ⟨S1x2x784, .f32⟩
  | .local _ .vmem, ⟨12, _⟩ => ⟨S1x128, .f32⟩
  | .local _ .vmem, ⟨13, _⟩ => ⟨S1x128, .f32⟩
  | _, _ => ⟨S64x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v140 : BitVec 1 := Scalar.cmpi .eq arg0 c63_i32
  let v141 : BitVec 32 := Scalar.extui v140
  let c0_i32_45 : BitVec 32 := 0#32
  let v142 : BitVec 1 := Scalar.cmpi .ne v141 c0_i32_45
  v142

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x784 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x784 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S64x256x28x28_S64x256x784 : S64x256x28x28.ShapeCasts S64x256x784
  shapeCasts_S64x2x28x28_S64x2x784 : S64x2x28x28.ShapeCasts S64x2x784
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x256x784_S1x256x784_0_0_0 : ∀ a, (![0, 0, 0] : Fin 3 → Nat) a + S1x256x784.size a ≤ S1x256x784.size a
  h_S1x256x784 : 0 < S1x256x784.numel
  shapeCasts_S1x256x784_S256x784 : S1x256x784.ShapeCasts S256x784
  bitsLt_bf16_f32 : FTy.bits .bf16 < FTy.bits .f32
  reduces_S256x784_S784 : S256x784.Reduces [0] S784
  shapeCasts_S784_S784x1 : S784.ShapeCasts S784x1
  shapeCasts_S784_S1x784 : S784.ShapeCasts S1x784
  broadcasts_S784x1_S784x784 : S784x1.Broadcasts S784x784
  broadcasts_S1x784_S784x784 : S1x784.Broadcasts S784x784
  inb_S1x2x784_S1x2x784_0_0_0 : ∀ a, (![0, 0, 0] : Fin 3 → Nat) a + S1x2x784.size a ≤ S1x2x784.size a
  h_S1x2x784 : 0 < S1x2x784.numel
  shapeCasts_S1x2x784_S2x784 : S1x2x784.ShapeCasts S2x784
  slices_S2x784_o0_0_S1x784 : S2x784.Slices ![0, 0] S1x784
  shapeCasts_S1x784_S784 : S1x784.ShapeCasts S784
  slices_S2x784_o1_0_S1x784 : S2x784.Slices ![1, 0] S1x784
  slices_S2x784_o0_29_S2x1 : S2x784.Slices ![0, 29] S2x1
  slices_S2x784_o0_0_S2x1 : S2x784.Slices ![0, 0] S2x1
  reduces_S2x1_S1 : S2x1.Reduces [0] S1
  inpos_S1_p0 : ∀ a, (![0] : Fin 1 → Nat) a < S1.size a
  reduces_S784x784_S784 : S784x784.Reduces [1] S784
  reduces_S784x1_S1 : S784x1.Reduces [0] S1
  natLt_1_32 : 1 < 32
  iota_S1x128_d1_w32 : S1x128.Iotas .tc 32 [1]
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  slices_S1x128_S1x1_0_3 : S1x128.Slices ![0, 3] S1x1
  dot_S256x784_S256x784_S784x784_0_0_1_1_n_n_wf : DotDims.WF S256x784 S256x784 S784x784 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x784.size a ≤ S64x256x784.size a
  hwx0_0 : ∀ i : grid0.Coords, EltTy.bits .f32 = 32 ∨ (Rect.block (s := S64x256x784) S1x256x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x784.size a ≤ S64x256x784.size a
  hwx0_1 : ∀ i : grid0.Coords, EltTy.bits .f32 = 32 ∨ (Rect.block (s := S64x256x784) S1x256x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x784.size a ≤ S64x256x784.size a
  hwx0_2 : ∀ i : grid0.Coords, EltTy.bits .f32 = 32 ∨ (Rect.block (s := S64x256x784) S1x256x784.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x784.size a ≤ S64x256x784.size a
  hwx0_3 : ∀ i : grid0.Coords, EltTy.bits .f32 = 32 ∨ (Rect.block (s := S64x256x784) S1x256x784.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x784.size a ≤ S64x2x784.size a
  hwx0_4 : ∀ i : grid0.Coords, EltTy.bits .f32 = 32 ∨ (Rect.block (s := S64x2x784) S1x2x784.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x784.size a ≤ S64x2x784.size a
  hwx0_5 : ∀ i : grid0.Coords, EltTy.bits .f32 = 32 ∨ (Rect.block (s := S64x2x784) S1x2x784.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)

variable [Facts₀]

def dot_S256x784_S256x784_S784x784_0_0_1_1_n_n : DotDims S256x784 S256x784 S784x784 where
  lhsContracting := [0]
  rhsContracting := [0]
  lhsNonContracting := [1]
  rhsNonContracting := [1]
  lhsBatch := []
  rhsBatch := []
  wf := dot_S256x784_S256x784_S784x784_0_0_1_1_n_n_wf

abbrev win0_0 : Pipeline.Window sig grid0 :=
  Pipeline.Window.ofSpec (Memref.whole main_v0) S1x256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x256x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x784.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x784.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2x784.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2x784.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x256x28x28 : Shape := ⟨4, ![64, 256, 28, 28]⟩
abbrev S64x2x28x28 : Shape := ⟨4, ![64, 2, 28, 28]⟩
abbrev S64x256x784 : Shape := ⟨3, ![64, 256, 784]⟩
abbrev S64x2x784 : Shape := ⟨3, ![64, 2, 784]⟩
abbrev S64x1x784 : Shape := ⟨3, ![64, 1, 784]⟩
abbrev S64x784 : Shape := ⟨2, ![64, 784]⟩
abbrev S64x784x1 : Shape := ⟨3, ![64, 784, 1]⟩
abbrev S64x784x784 : Shape := ⟨3, ![64, 784, 784]⟩
abbrev S64x2x1x1 : Shape := ⟨4, ![64, 2, 1, 1]⟩
abbrev S64x2 : Shape := ⟨2, ![64, 2]⟩
abbrev S_ : Shape := ⟨0, ![]⟩
abbrev S64 : Shape := ⟨1, ![64]⟩
abbrev S64x1x1 : Shape := ⟨3, ![64, 1, 1]⟩

abbrev nBuf : Space → Nat
  | .hbm => 117
  | .vmem => 0
  | .smem => 0
  | _ => 0

abbrev bufTy : (tb : Table) → Fin (tcTables nBuf tb) → BufTy
  | .hbm, ⟨0, _⟩ => ⟨S64x256x28x28, .f32⟩
  | .hbm, ⟨1, _⟩ => ⟨S64x256x28x28, .f32⟩
  | .hbm, ⟨2, _⟩ => ⟨S64x256x28x28, .f32⟩
  | .hbm, ⟨3, _⟩ => ⟨S64x256x28x28, .f32⟩
  | .hbm, ⟨4, _⟩ => ⟨S64x2x28x28, .f32⟩
  | .hbm, ⟨5, _⟩ => ⟨S64x2x28x28, .f32⟩
  | .hbm, ⟨6, _⟩ => ⟨S64x256x784, .f32⟩
  | .hbm, ⟨7, _⟩ => ⟨S64x256x784, .f32⟩
  | .hbm, ⟨8, _⟩ => ⟨S64x256x784, .f32⟩
  | .hbm, ⟨9, _⟩ => ⟨S64x256x784, .f32⟩
  | .hbm, ⟨10, _⟩ => ⟨S64x2x784, .f32⟩
  | .hbm, ⟨11, _⟩ => ⟨S64x2x784, .f32⟩
  | .hbm, ⟨12, _⟩ => ⟨S64x1x784, .f32⟩
  | .hbm, ⟨13, _⟩ => ⟨S64x784, .f32⟩
  | .hbm, ⟨14, _⟩ => ⟨S64x784x1, .f32⟩
  | .hbm, ⟨15, _⟩ => ⟨S64x1x784, .f32⟩
  | .hbm, ⟨16, _⟩ => ⟨S64x784, .f32⟩
  | .hbm, ⟨17, _⟩ => ⟨S64x1x784, .f32⟩
  | .hbm, ⟨18, _⟩ => ⟨S64x784x784, .f32⟩
  | .hbm, ⟨19, _⟩ => ⟨S64x784x784, .f32⟩
  | .hbm, ⟨20, _⟩ => ⟨S64x784x784, .f32⟩
  | .hbm, ⟨21, _⟩ => ⟨S64x1x784, .f32⟩
  | .hbm, ⟨22, _⟩ => ⟨S64x784, .f32⟩
  | .hbm, ⟨23, _⟩ => ⟨S64x784x1, .f32⟩
  | .hbm, ⟨24, _⟩ => ⟨S64x1x784, .f32⟩
  | .hbm, ⟨25, _⟩ => ⟨S64x784, .f32⟩
  | .hbm, ⟨26, _⟩ => ⟨S64x1x784, .f32⟩
  | .hbm, ⟨27, _⟩ => ⟨S64x784x784, .f32⟩
  | .hbm, ⟨28, _⟩ => ⟨S64x784x784, .f32⟩
  | .hbm, ⟨29, _⟩ => ⟨S64x784x784, .f32⟩
  | .hbm, ⟨30, _⟩ => ⟨S64x784x784, .f32⟩
  | .hbm, ⟨31, _⟩ => ⟨S64x784x784, .f32⟩
  | .hbm, ⟨32, _⟩ => ⟨S64x784x784, .f32⟩
  | .hbm, ⟨33, _⟩ => ⟨S64x784x784, .f32⟩
  | .hbm, ⟨34, _⟩ => ⟨S64x2x1x1, .f32⟩
  | .hbm, ⟨35, _⟩ => ⟨S64x2, .f32⟩
  | .hbm, ⟨36, _⟩ => ⟨S64x2x1x1, .f32⟩
  | .hbm, ⟨37, _⟩ => ⟨S64x2, .f32⟩
  | .hbm, ⟨38, _⟩ => ⟨S64x2, .f32⟩
  | .hbm, ⟨39, _⟩ => ⟨S64x2, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S64x2x1x1, .f32⟩
  | .hbm, ⟨44, _⟩ => ⟨S64x2, .f32⟩
  | .hbm, ⟨45, _⟩ => ⟨S64x2x1x1, .f32⟩
  | .hbm, ⟨46, _⟩ => ⟨S64x2, .f32⟩
  | .hbm, ⟨47, _⟩ => ⟨S64x2, .f32⟩
  | .hbm, ⟨48, _⟩ => ⟨S64x2, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64x1x1, .f32⟩
  | .hbm, ⟨53, _⟩ => ⟨S64x784x784, .f32⟩
  | .hbm, ⟨54, _⟩ => ⟨S64x784x784, .f32⟩
  | .hbm, ⟨55, _⟩ => ⟨S_, .f32⟩
  | .hbm, ⟨56, _⟩ => ⟨S64x784x784, .f32⟩
  | .hbm, ⟨57, _⟩ => ⟨S64x784x784, .i1⟩
  | .hbm, ⟨58, _⟩ => ⟨S64x1x1, .f32⟩
  | .hbm, ⟨59, _⟩ => ⟨S64x784x784, .f32⟩
  | .hbm, ⟨60, _⟩ => ⟨S64x784x784, .f32⟩
  | .hbm, ⟨61, _⟩ => ⟨S_, .f32⟩
  | .hbm, ⟨62, _⟩ => ⟨S64x784x784, .f32⟩
  | .hbm, ⟨63, _⟩ => ⟨S64x784x784, .i1⟩
  | .hbm, ⟨64, _⟩ => ⟨S64x784x784, .f32⟩
  | .hbm, ⟨65, _⟩ => ⟨S64x256x784, .f32⟩
  | .hbm, ⟨66, _⟩ => ⟨S_, .f32⟩
  | .hbm, ⟨67, _⟩ => ⟨S64x784, .f32⟩
  | .hbm, ⟨68, _⟩ => ⟨S64x784, .f32⟩
  | .hbm, ⟨69, _⟩ => ⟨S64x256x784, .f32⟩
  | .hbm, ⟨70, _⟩ => ⟨S_, .f32⟩
  | .hbm, ⟨71, _⟩ => ⟨S64x784, .f32⟩
  | .hbm, ⟨72, _⟩ => ⟨S64x784, .f32⟩
  | .hbm, ⟨73, _⟩ => ⟨S64x784x1, .f32⟩
  | .hbm, ⟨74, _⟩ => ⟨S64x1x784, .f32⟩
  | .hbm, ⟨75, _⟩ => ⟨S64x784x784, .f32⟩
  | .hbm, ⟨76, _⟩ => ⟨S64x784x784, .f32⟩
  | .hbm, ⟨77, _⟩ => ⟨S64x784x784, .f32⟩
  | .hbm, ⟨78, _⟩ => ⟨S_, .f32⟩
  | .hbm, ⟨79, _⟩ => ⟨S64x784x784, .f32⟩
  | .hbm, ⟨80, _⟩ => ⟨S64x784x784, .f32⟩
  | .hbm, ⟨81, _⟩ => ⟨S64x784x784, .f32⟩
  | .hbm, ⟨82, _⟩ => ⟨S64x784x784, .f32⟩
  | .hbm, ⟨83, _⟩ => ⟨S64x784x784, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S64x784x784, .f32⟩
  | .hbm, ⟨90, _⟩ => ⟨S64x256x784, .f32⟩
  | .hbm, ⟨91, _⟩ => ⟨S_, .f32⟩
  | .hbm, ⟨92, _⟩ => ⟨S64x784, .f32⟩
  | .hbm, ⟨93, _⟩ => ⟨S64x784, .f32⟩
  | .hbm, ⟨94, _⟩ => ⟨S64x256x784, .f32⟩
  | .hbm, ⟨95, _⟩ => ⟨S_, .f32⟩
  | .hbm, ⟨96, _⟩ => ⟨S64x784, .f32⟩
  | .hbm, ⟨97, _⟩ => ⟨S64x784, .f32⟩
  | .hbm, ⟨98, _⟩ => ⟨S64x784x1, .f32⟩
  | .hbm, ⟨99, _⟩ => ⟨S64x1x784, .f32⟩
  | .hbm, ⟨100, _⟩ => ⟨S64x784x784, .f32⟩
  | .hbm, ⟨101, _⟩ => ⟨S64x784x784, .f32⟩
  | .hbm, ⟨102, _⟩ => ⟨S64x784x784, .f32⟩
  | .hbm, ⟨103, _⟩ => ⟨S_, .f32⟩
  | .hbm, ⟨104, _⟩ => ⟨S64x784x784, .f32⟩
  | .hbm, ⟨105, _⟩ => ⟨S64x784x784, .f32⟩
  | .hbm, ⟨106, _⟩ => ⟨S64x784x784, .f32⟩
  | .hbm, ⟨107, _⟩ => ⟨S64x784x784, .f32⟩
  | .hbm, ⟨108, _⟩ => ⟨S64x784x784, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S64x256x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_0 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call2_v0 : Ref sig .tc := ⟨.hbm, 65, rfl⟩
abbrev main_call2_cst : Ref sig .tc := ⟨.hbm, 66, rfl⟩
abbrev main_call2_v1 : Ref sig .tc := ⟨.hbm, 67, rfl⟩
abbrev main_v51 : Ref sig .tc := ⟨.hbm, 68, rfl⟩
abbrev main_call3_v0 : Ref sig .tc := ⟨.hbm, 69, rfl⟩
abbrev main_call3_cst : Ref sig .tc := ⟨.hbm, 70, rfl⟩
abbrev main_call3_v1 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_1 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_2 : Ref sig .tc := ⟨.hbm, 84, rfl⟩
abbrev main_v63 : Ref sig .tc := ⟨.hbm, 85, rfl⟩
abbrev main_cst_3 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call4_v0 : Ref sig .tc := ⟨.hbm, 90, rfl⟩
abbrev main_call4_cst : Ref sig .tc := ⟨.hbm, 91, rfl⟩
abbrev main_call4_v1 : Ref sig .tc := ⟨.hbm, 92, rfl⟩
abbrev main_v67 : Ref sig .tc := ⟨.hbm, 93, rfl⟩
abbrev main_call5_v0 : Ref sig .tc := ⟨.hbm, 94, rfl⟩
abbrev main_call5_cst : Ref sig .tc := ⟨.hbm, 95, rfl⟩
abbrev main_call5_v1 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_4 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_5 : Ref sig .tc := ⟨.hbm, 109, rfl⟩
abbrev main_v79 : Ref sig .tc := ⟨.hbm, 110, rfl⟩
abbrev main_cst_6 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_7 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  shapeCasts_S64x256x28x28_S64x256x784 : S64x256x28x28.ShapeCasts S64x256x784
  shapeCasts_S64x2x28x28_S64x2x784 : S64x2x28x28.ShapeCasts S64x2x784
  slices_S64x2x784_S64x1x784_0_0_0 : S64x2x784.Slices ![0, 0, 0] S64x1x784
  shapeCasts_S64x1x784_S64x784 : S64x1x784.ShapeCasts S64x784
  bcast_S64x784_S64x784x1_0_1 : S64x784.BroadcastsInDim S64x784x1 (![0, 1] : Fin 2 → Fin S64x784x1.rank)
  bcast_S64x784_S64x1x784_0_2 : S64x784.BroadcastsInDim S64x1x784 (![0, 2] : Fin 2 → Fin S64x1x784.rank)
  bcast_S64x784x1_S64x784x784_0_1_2 : S64x784x1.BroadcastsInDim S64x784x784 (![0, 1, 2] : Fin 3 → Fin S64x784x784.rank)
  bcast_S64x1x784_S64x784x784_0_1_2 : S64x1x784.BroadcastsInDim S64x784x784 (![0, 1, 2] : Fin 3 → Fin S64x784x784.rank)
  slices_S64x2x784_S64x1x784_0_1_0 : S64x2x784.Slices ![0, 1, 0] S64x1x784
  slices_S64x2x28x28_S64x2x1x1_0_0_1_1 : S64x2x28x28.Slices ![0, 0, 1, 1] S64x2x1x1
  shapeCasts_S64x2x1x1_S64x2 : S64x2x1x1.ShapeCasts S64x2
  slices_S64x2x28x28_S64x2x1x1_0_0_0_0 : S64x2x28x28.Slices ![0, 0, 0, 0] S64x2x1x1
  reducesTo_S64x2_S64_d1 : S64x2.ReducesTo [1] S64
  h_S_ : 0 < S_.numel
  bcast_S64_S64x1x1_0 : S64.BroadcastsInDim S64x1x1 (![0] : Fin 1 → Fin S64x1x1.rank)
  bcast_S64x1x1_S64x784x784_0_1_2 : S64x1x1.BroadcastsInDim S64x784x784 (![0, 1, 2] : Fin 3 → Fin S64x784x784.rank)
  bcast_S_S64x784x784 : S_.BroadcastsInDim S64x784x784 (![] : Fin 0 → Fin S64x784x784.rank)
  reducesTo_S64x256x784_S64x784_d1 : S64x256x784.ReducesTo [1] S64x784
  reducesTo_S64x784x784_S_d0_1_2 : S64x784x784.ReducesTo [0, 1, 2] S_
  dot_S64x256x784_S64x256x784_S64x784x784_1_1_2_2_0_0_wf : DotDims.WF S64x256x784 S64x256x784 S64x784x784 [1] [1] [2] [2] [0] [0]

variable [Facts₀]

def dot_S64x256x784_S64x256x784_S64x784x784_1_1_2_2_0_0 : DotDims S64x256x784 S64x256x784 S64x784x784 where
  lhsContracting := [1]
  rhsContracting := [1]
  lhsNonContracting := [2]
  rhsNonContracting := [2]
  lhsBatch := [0]
  rhsBatch := [0]
  wf := dot_S64x256x784_S64x256x784_S64x784x784_1_1_2_2_0_0_wf

class Facts : Prop extends Facts₀ where

variable [Facts]
-- ==== Proof.Step.lean ====
/-
  What one grid point adds to the running row of totals, as one term over the point's six input blocks: the four
  per-entry quantities (two sums of similarities, two counts) placed on lanes 0 to 3 and added to the row held
  before the point.  Stated for any float instance; read at the extended reals elsewhere.
-/
import proofs.«124999_j40063454937742_1_alg».proof.Proof.Gen.KernelIdeal.Skeleton

noncomputable section

namespace Cert.KernelIdeal.Pt

open Idealize.ShloMosaic Cert.KernelIdeal Cert.KernelIdeal.Gen

variable {F : FTy → Type} [FloatOps F]

/-- The row of totals after a point, from the row `acc` before it and the point's blocks: `x0, x1` the first
    view's two feature blocks, `x2, x3` the second view's, `x4, x5` the two coordinate grids. -/
def step (acc : Vec F S1x128 .f32) (x0 x1 x2 x3 : Vec F S1x256x784 .f32) (x4 x5 : Vec F S1x2x784 .f32) :
    Vec F S1x128 .f32 :=
  k0_pay1 (k0_pay20 (k0_pay12 (k0_pay7 x0 x1) (k0_pay10 x0 x1)) (k0_pay18 x4 x5) (Scalar.ofBits .f32 0x3F333333#32))
    (k0_pay21 (k0_pay18 x4 x5) (Scalar.ofBits .f32 0x3F333333#32))
    k0_pay22 k0_pay23
    (k0_pay24 (k0_pay13 (k0_pay8 x2 x3) (k0_pay9 x3) (k0_pay11 x2)) (k0_pay16 x4 x5) (k0_pay17 x5))
    acc

end Cert.KernelIdeal.Pt

end
-- ==== Proof.Pieces.lean ====
/-
  What the kernel body leaves in its two 128-lane rows, case by case, as values.

  The body keeps a running row of totals in a scratch row.  At the first grid point it clears the row and adds the
  point's four quantities; at every later point it adds them to what the point before left; at the last point it
  also copies the updated row to the output row.  Each case's stores, read back, are therefore `step` applied to
  the row before (the cleared row at the first point) and the point's input blocks.
-/
import proofs.«124999_j40063454937742_1_alg».proof.Proof.Gen.KernelIdeal.Frame
import proofs.«124999_j40063454937742_1_alg».proof.Proof.Step
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Pt

variable {F : FTy → Type} [FloatOps F]

theorem hz : (![0, 0] : Fin 2 → Nat) = fun _ => 0 := funext fun a => by fin_cases a <;> rfl

theorem hz3 : (![0, 0, 0] : Fin 3 → Nat) = fun _ => 0 := funext fun a => by fin_cases a <;> rfl

/-- A middle point: the scratch row becomes the row before plus the point's quantities. -/
theorem sout_B (c : Dev nD) (i : grid0.Coords) (a1 : Memref sig .tc .vmem S1x256x784 .f32) (h1 : a1.IsWhole) (a2 : Memref sig .tc .vmem S1x256x784 .f32) (h2 : a2.IsWhole) (a3 : Memref sig .tc .vmem S1x256x784 .f32) (h3 : a3.IsWhole) (a4 : Memref sig .tc .vmem S1x256x784 .f32) (h4 : a4.IsWhole) (a5 : Memref sig .tc .vmem S1x2x784 .f32) (h5 : a5.IsWhole) (a6 : Memref sig .tc .vmem S1x2x784 .f32) (h6 : a6.IsWhole) (a7 : Memref sig .tc .vmem S1x128 .f32) (h7 : a7.IsWhole) (a8 : Memref sig .tc .vmem S1x128 .f32) (h8 : a8.IsWhole) (hc0 : ¬cond0_0 i) (hc1 : ¬cond0_1 i) (x0 x1 x2 x3 : Vec F S1x256x784 .f32) (x4 x5 : Vec F S1x2x784 .f32) (xs0 : Vec F S1x128 .f32) :
    sout0_B_0 c i a1 h1 a2 h2 a3 h3 a4 h4 a5 h5 a6 h6 a7 h7 a8 h8 hc0 hc1 x0 x1 x2 x3 x4 x5 xs0 = step xs0 x0 x1 x2 x3 x4 x5 := by
  unfold sout0_B_0
  rw [View.read_writes_eq_canon _ _ _ (scover0_B_0 c i a1 h1 a2 h2 a3 h3 a4 h4 a5 h5 a6 h6 a7 h7 a8 h8 hc0 hc1 x0 x1 x2 x3 x4 x5 xs0)]
  unfold kernelRun0_B
  dsimp only
  sl_unfold_words
  rw [View.canon_unit_zero hz]
  simp only [View.readAt_eq_ld, h1.read_unread, h2.read_unread, h3.read_unread, h4.read_unread, h5.read_unread, h6.read_unread, h8.read_unread,
    View.ld_unit_zero (S := S1x256x784) hz3, View.ld_unit_zero (S := S1x2x784) hz3, View.ld_unit_zero (S := S1x128) hz]
  rfl

/-- The first point: the row is cleared, read back, and the point's quantities added to it. -/
theorem sout_A (c : Dev nD) (i : grid0.Coords) (a1 : Memref sig .tc .vmem S1x256x784 .f32) (h1 : a1.IsWhole) (a2 : Memref sig .tc .vmem S1x256x784 .f32) (h2 : a2.IsWhole) (a3 : Memref sig .tc .vmem S1x256x784 .f32) (h3 : a3.IsWhole) (a4 : Memref sig .tc .vmem S1x256x784 .f32) (h4 : a4.IsWhole) (a5 : Memref sig .tc .vmem S1x2x784 .f32) (h5 : a5.IsWhole) (a6 : Memref sig .tc .vmem S1x2x784 .f32) (h6 : a6.IsWhole) (a7 : Memref sig .tc .vmem S1x128 .f32) (h7 : a7.IsWhole) (a8 : Memref sig .tc .vmem S1x128 .f32) (h8 : a8.IsWhole) (hc0 : cond0_0 i) (hc1 : ¬cond0_1 i) (x0 x1 x2 x3 : Vec F S1x256x784 .f32) (x4 x5 : Vec F S1x2x784 .f32) :
    sout0_A_0 c i a1 h1 a2 h2 a3 h3 a4 h4 a5 h5 a6 h6 a7 h7 a8 h8 hc0 hc1 x0 x1 x2 x3 x4 x5 = step (k0_pay2 (F := F)) x0 x1 x2 x3 x4 x5 := by
  unfold sout0_A_0
  rw [View.read_writes_eq_canon _ _ _ (scover0_A_0 c i a1 h1 a2 h2 a3 h3 a4 h4 a5 h5 a6 h6 a7 h7 a8 h8 hc0 hc1 x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h8.read_unread,
    View.ld_unit_zero (S := S1x256x784) hz3, View.ld_unit_zero (S := S1x2x784) hz3, View.ld_unit_zero (S := S1x128) hz]
  rfl

/-- The last point, the scratch row: as at a middle point. -/
theorem sout_C (c : Dev nD) (i : grid0.Coords) (a1 : Memref sig .tc .vmem S1x256x784 .f32) (h1 : a1.IsWhole) (a2 : Memref sig .tc .vmem S1x256x784 .f32) (h2 : a2.IsWhole) (a3 : Memref sig .tc .vmem S1x256x784 .f32) (h3 : a3.IsWhole) (a4 : Memref sig .tc .vmem S1x256x784 .f32) (h4 : a4.IsWhole) (a5 : Memref sig .tc .vmem S1x2x784 .f32) (h5 : a5.IsWhole) (a6 : Memref sig .tc .vmem S1x2x784 .f32) (h6 : a6.IsWhole) (a7 : Memref sig .tc .vmem S1x128 .f32) (h7 : a7.IsWhole) (a8 : Memref sig .tc .vmem S1x128 .f32) (h8 : a8.IsWhole) (hc0 : ¬cond0_0 i) (hc1 : cond0_1 i) (x0 x1 x2 x3 : Vec F S1x256x784 .f32) (x4 x5 : Vec F S1x2x784 .f32) (xs0 : Vec F S1x128 .f32) :
    sout0_C_0 c i a1 h1 a2 h2 a3 h3 a4 h4 a5 h5 a6 h6 a7 h7 a8 h8 hc0 hc1 x0 x1 x2 x3 x4 x5 xs0 = step xs0 x0 x1 x2 x3 x4 x5 := by
  unfold sout0_C_0
  rw [View.read_writes_eq_canon _ _ _ (scover0_C_0 c i a1 h1 a2 h2 a3 h3 a4 h4 a5 h5 a6 h6 a7 h7 a8 h8 hc0 hc1 x0 x1 x2 x3 x4 x5 xs0)]
  unfold kernelRun0_C
  dsimp only
  sl_unfold_words
  rw [View.canon_unit_zero hz]
  simp only [View.readAt_eq_ld, h1.read_unread, h2.read_unread, h3.read_unread, h4.read_unread, h5.read_unread, h6.read_unread, h8.read_unread,
    View.ld_unit_zero (S := S1x256x784) hz3, View.ld_unit_zero (S := S1x2x784) hz3, View.ld_unit_zero (S := S1x128) hz]
  rfl

/-- The last point, the output row: the updated scratch row, read back and stored. -/
theorem out_C (c : Dev nD) (i : grid0.Coords) (a1 : Memref sig .tc .vmem S1x256x784 .f32) (h1 : a1.IsWhole) (a2 : Memref sig .tc .vmem S1x256x784 .f32) (h2 : a2.IsWhole) (a3 : Memref sig .tc .vmem S1x256x784 .f32) (h3 : a3.IsWhole) (a4 : Memref sig .tc .vmem S1x256x784 .f32) (h4 : a4.IsWhole) (a5 : Memref sig .tc .vmem S1x2x784 .f32) (h5 : a5.IsWhole) (a6 : Memref sig .tc .vmem S1x2x784 .f32) (h6 : a6.IsWhole) (a7 : Memref sig .tc .vmem S1x128 .f32) (h7 : a7.IsWhole) (a8 : Memref sig .tc .vmem S1x128 .f32) (h8 : a8.IsWhole) (hc0 : ¬cond0_0 i) (hc1 : cond0_1 i) (x0 x1 x2 x3 : Vec F S1x256x784 .f32) (x4 x5 : Vec F S1x2x784 .f32) (xs0 : Vec F S1x128 .f32) :
    out0_C_6 c i a1 h1 a2 h2 a3 h3 a4 h4 a5 h5 a6 h6 a7 h7 a8 h8 hc0 hc1 x0 x1 x2 x3 x4 x5 xs0 = step xs0 x0 x1 x2 x3 x4 x5 := by
  unfold out0_C_6
  rw [View.read_writes_eq_canon _ _ _ (cover0_C_6 c i a1 h1 a2 h2 a3 h3 a4 h4 a5 h5 a6 h6 a7 h7 a8 h8 hc0 hc1 x0 x1 x2 x3 x4 x5 xs0)]
  unfold kernelRun0_C
  dsimp only
  sl_unfold_words
  rw [View.canon_unit_zero hz, View.readCov_unit_zero (S := S1x128) _ hz]
  simp only [View.readAt_eq_ld, h1.read_unread, h2.read_unread, h3.read_unread, h4.read_unread, h5.read_unread, h6.read_unread, h8.read_unread,
    View.ld_unit_zero (S := S1x256x784) hz3, View.ld_unit_zero (S := S1x2x784) hz3, View.ld_unit_zero (S := S1x128) hz]
  rfl

end Cert.KernelIdeal.Pieces

end
-- ==== Proof.Chain.lean ====
/-
  The running row of totals over the grid.  After point 0 it is the cleared row plus that point's quantities; after
  point `n + 1` it is the row after point `n` plus point `n + 1`'s.  What the generated frame states the scratch
  row to hold after each point is this chain (by induction on the point), and at the last point the output row
  holds the same.
-/
import proofs.«124999_j40063454937742_1_alg».proof.Proof.Pieces

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Pt Cert.KernelIdeal.Pieces

variable {F : FTy → Type} [FloatOps F]
variable (m : (ℓ : Loc nD τ sig) → Buf (Elt F) ℓ)

/-- One point's update of the row `acc`, at the point's six input blocks. -/
def stepAt (c : Dev nD) (acc : Vec F S1x128 .f32) (t : Fin cfg0.N) : Vec F S1x128 .f32 :=
  step acc (iblk m c 0 t) (iblk m c 1 t) (iblk m c 2 t) (iblk m c 3 t) (iblk m c 4 t) (iblk m c 5 t)

/-- The row after point `n`. -/
def chain (c : Dev nD) : (n : ℕ) → n < cfg0.N → Vec F S1x128 .f32
  | 0, h => stepAt m c (k0_pay2 (F := F)) ⟨0, h⟩
  | n + 1, h => stepAt m c (chain c n (Nat.lt_of_succ_lt h)) ⟨n + 1, h⟩

/-- The scratch row after point `n` is the chain. -/
theorem scratch_eq (c : Dev nD) : ∀ (n : ℕ) (h : n < cfg0.N), (outsAt0 m c n h).2 = chain m c n h
  | 0, h => by
    rw [outsAt0_A m c ⟨0, h⟩ rfl (by show ¬(0 % 64 = 63); decide)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩)
  | n + 1, h => by
    have hN : cfg0.N = 64 := N_0
    have h0 : ¬(⟨n + 1, h⟩ : Fin cfg0.N).val % 64 = 0 := by dsimp only; omega
    have ih := scratch_eq c n (Nat.lt_of_succ_lt h)
    by_cases h1 : (⟨n + 1, h⟩ : Fin cfg0.N).val % 64 = 63
    · rw [outsAt0_C m c ⟨n + 1, h⟩ h0 h1]
      dsimp only
      refine (sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _).trans ?_
      show stepAt m c (outsAt0 m c n _).2 ⟨n + 1, h⟩ = stepAt m c (chain m c n _) ⟨n + 1, h⟩
      rw [ih]
    · rw [outsAt0_B m c ⟨n + 1, h⟩ h0 h1]
      dsimp only
      refine (sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _).trans ?_
      show stepAt m c (outsAt0 m c n _).2 ⟨n + 1, h⟩ = stepAt m c (chain m c n _) ⟨n + 1, h⟩
      rw [ih]

/-- At the last point the output row holds the chain too. -/
theorem out_eq (c : Dev nD) : ∀ (n : ℕ) (h : n < cfg0.N), n % 64 = 63 → (outsAt0 m c n h).1 = chain m c n h
  | 0, _, h1 => absurd h1 (by decide)
  | n + 1, h, h1 => by
    have hN : cfg0.N = 64 := N_0
    have h0 : ¬(⟨n + 1, h⟩ : Fin cfg0.N).val % 64 = 0 := by dsimp only; omega
    rw [outsAt0_C m c ⟨n + 1, h⟩ h0 h1]
    dsimp only
    refine (out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _).trans ?_
    show stepAt m c (outsAt0 m c n _).2 ⟨n + 1, h⟩ = stepAt m c (chain m c n _) ⟨n + 1, h⟩
    rw [scratch_eq m c n]

end Cert.KernelIdeal.Chain

end
-- ==== Proof.Final.lean ====
/-
  From the grid to the program's result.  Only the last grid point writes the output row back, and its block is
  the whole one-row array; so after the run the kernel's result array holds the chain's last row.  The host lines
  after the kernel read lanes 0 to 3 of that row and form minus (lane 0 / lane 1 + lane 2 / lane 3).
-/
import proofs.«124999_j40063454937742_1_alg».proof.Proof.Chain
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Chain

variable {F : FTy → Type} [FloatOps F]
variable (m : (ℓ : Loc nD τ sig) → Buf (Elt F) ℓ) (ρ : Dev nD → PrngReg)

theorem h63 : 63 < cfg0.N := by rw [show cfg0.N = 64 from N_0]; decide

/-- The last grid point. -/
abbrev tL : Fin cfg0.N := ⟨63, h63⟩

/-- The row after the last point, as contents of the kernel's result array (its one block is the array). -/
abbrev result (c : Dev nD) : Buf (Elt F) ((c : Thread nD τ).loc main_v6) := chain m c 63 h63

/-- The one write-back, at the last point, writes that row. -/
theorem flushed_eq (c : Dev nD) (t : Fin cfg0.N) (hf : (cfg0.win 6).flush t = true) :
    (dats m 0 c).flushed 6 t = ((cfg0.win 6).blk t).view.read (Elt F) (result m c) := by
  have hN : cfg0.N = 64 := N_0
  have h3 : t.val = 63 := by have := (flush0_6 t).mp hf; have := t.isLt; omega
  obtain rfl : t = tL := Fin.ext h3
  show (cfg0.win 6).cut (grid0.coords tL) ((dats m 0 c).after 6 tL) = _
  rw [after0_6]
  have e : (outsAt0 m c (tL : Fin cfg0.N).val (tL : Fin cfg0.N).isLt).1 = result m c := out_eq m c 63 h63 rfl
  rw [e]
  have hz' : (fun a => win0_6.index tL a * main_v6.ty.shape.size a) = fun _ => 0 :=
    funext fun a => by fin_cases a <;> decide +kernel
  exact (Memref.read_access_unit_zero (Elt F) main_v6 hz' (fun a => by rw [congrFun hz' a]; simp) (result m c)).symm

/-- So the result array ends holding the chain's last row: the last point's block covers it. -/
theorem final (c : Dev nD) : (dats m 0 c).arrAt 6 cfg0.N = result m c :=
  (dats m 0 c).arrAt_eq_of_cover 6 (result m c) (flushed_eq m c) fun i =>
    ⟨tL, (flush0_6 tL).mpr rfl, by
      show i ∈ ((View.whole main_v6).slice (win0_6.rect tL)).set
      rw [View.set_slice_whole, Rect.mem_set_unit]
      intro a
      have h0 : (i 0 : Nat) < 1 := (i 0).isLt
      have h1 : (i 1 : Nat) < 128 := (i 1).isLt
      match a with
      | ⟨0, _⟩ => show win0_6.index tL 0 * win0_6.size 0 ≤ (i 0 : Nat) ∧ (i 0 : Nat) < win0_6.index tL 0 * win0_6.size 0 + win0_6.xsize (grid0.coords tL) 0
                  rw [show win0_6.index tL 0 * win0_6.size 0 = 0 from by decide +kernel, show win0_6.xsize (grid0.coords tL) 0 = 1 from by decide +kernel]; omega
      | ⟨1, _⟩ => show win0_6.index tL 1 * win0_6.size 1 ≤ (i 1 : Nat) ∧ (i 1 : Nat) < win0_6.index tL 1 * win0_6.size 1 + win0_6.xsize (grid0.coords tL) 1
                  rw [show win0_6.index tL 1 * win0_6.size 1 = 0 from by decide +kernel, show win0_6.xsize (grid0.coords tL) 1 = 128 from by decide +kernel]; omega⟩

/-- The host lines after the kernel, as one function of the result row. -/
def tail (a : FVec F S1x128 .f32) : FVec F S_ .f32 :=
  mulf (constant S_ .f32 0xBF800000#32)
    (addf
      (Host.divf (shapeCast S_ (extractStridedSlice S1x1 ![0, 0] a slices_S1x128_S1x1_0_0) shapeCasts_S1x1_S_)
        (shapeCast S_ (extractStridedSlice S1x1 ![0, 1] a slices_S1x128_S1x1_0_1) shapeCasts_S1x1_S_))
      (Host.divf (shapeCast S_ (extractStridedSlice S1x1 ![0, 2] a slices_S1x128_S1x1_0_2) shapeCasts_S1x1_S_)
        (shapeCast S_ (extractStridedSlice S1x1 ![0, 3] a slices_S1x128_S1x1_0_3) shapeCasts_S1x1_S_)))

/-- The program's result after the host lines: `tail` of the chain's last row. -/
theorem tail_eq (c : Dev nD) :
    Pipeline.afterTail₀ cfgs (dats m) 0 (V0 m) [hostOps1] c main_v18 = tail (result m c) := by
  unfold Pipeline.afterTail₀
  show StableHlo.after hostOps1 _ (Proc.devRef .tc main_v18) = _
  after_results
  have e : Pipeline.withArrays (cfgs 0).spec c (V0 m c) (fun w => (dats m 0 c).arrAt w (cfgs 0).N) (Proc.tc.devRef main_v6)
      = result m c := (Pipeline.withArrays_arr spec0 launch0.win.arr_inj c _ _ 6).trans (final m c)
  rw [e]
  rfl

/-- The run, read: the program's result at `tail` of the chain's last row, the arguments unchanged. -/
theorem run : θ_run defs (onTc (τ := τ) (main (F := F))) ⟨m, fun _ => 0, ρ⟩ fun r => ∀ c : Dev nD,
      r.2.mem ((c.tc : Thread nD τ).loc main_v18) = tail (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.Spec.lean ====
/-
  The loss both programs compute, written once over coordinates.

  For one batch entry, with feature arrays `a, b : [256, 784]` and coordinate grids `g1, g2 : [2, 784]`:
  the cosine similarity of column `n` of `a` and column `m` of `b` is their dot product over the 256 channels
  divided by the larger of the product of the two column norms and a small constant; the distance of grid
  positions `n` and `m` is the Euclidean distance of `g1(·, n)` and `g2(·, m)`; a pair `(n, m)` is near when that
  distance divided by a bin width `w` is at most a threshold.  A batch entry contributes the sum of the
  similarities of its near pairs and the number of its near pairs; the loss is minus the sum, over the two views,
  of (total similarity) / (total count), both totals taken over all 64 batch entries.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The small constant the denominator is kept above. -/
def eps : EReal := Ideal.ofBits .f32 0x322BCC77#32
/-- The threshold on the scaled distance. -/
def thr : EReal := Ideal.ofBits .f32 0x3F333333#32
/-- The final factor, minus one. -/
def neg1 : EReal := Ideal.ofBits .f32 0xBF800000#32

/-- A one-bit word as the number 0 or 1. -/
def ind (c : BitVec 1) : EReal := ((c.toNat : ℝ) : EReal)

theorem ind_zero : ind 0#1 = 0 := by simp [ind]
theorem ind_one : ind 1#1 = 1 := by simp [ind]

/-- Choosing `x` or zero on a bit is multiplying `x` by the bit's number: `x · 1 = x`, `x · 0 = 0` for every
    extended real. -/
theorem select_eq_mul_ind (c : BitVec 1) (x : EReal) : Scalar.select c x 0 = x * ind c := by
  rcases BitVec.eq_zero_or_eq_one c with h | h
  · subst h; rw [select_zero, ind_zero, mul_zero]
  · subst h; rw [select_one, ind_one, mul_one]

/-- A bit widened to 32 bits and read as a signed integer is still 0 or 1. -/
theorem toInt_setWidth_eq_ind (c : BitVec 1) : (((c.setWidth 32).toInt : ℝ) : EReal) = ind c := by
  rcases BitVec.eq_zero_or_eq_one c with h | h
  · subst h; simp [ind]
  · subst h; simp [ind]

/-- A three-axis array read through its coordinates. -/
def arr3 {n0 n1 n2 : ℕ} (a : (⟨3, ![n0, n1, n2]⟩ : Shape).Idx → EReal) : Fin n0 → Fin n1 → Fin n2 → EReal :=
  fun i j k => a (ix3 i j k)

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

section PerBatch

variable (a b : Fin 256 → Fin 784 → EReal) (g1 g2 : Fin 2 → Fin 784 → EReal)

/-- The dot product over the channels of column `n` of `a` and column `m` of `b`. -/
def dotc (n m : Fin 784) : EReal := ∑ k : Fin 256, a k n * b k m
/-- The norm of column `n` of `a`. -/
def nrm (n : Fin 784) : EReal := Ideal.sqrt (∑ k : Fin 256, a k n * a k n)
/-- The cosine similarity of column `n` of `a` and column `m` of `b`. -/
def sim (n m : Fin 784) : EReal := Ideal.div (dotc a b n m) (max (nrm a n * nrm b m) eps)
/-- The distance of grid position `n` of the first view and `m` of the second. -/
def dist (n m : Fin 784) : EReal :=
  Ideal.sqrt ((g1 0 n - g2 0 m) * (g1 0 n - g2 0 m) + (g1 1 n - g2 1 m) * (g1 1 n - g2 1 m))
/-- A view's bin width: the distance of its grid positions (1, 1) and (0, 0), flat positions 29 and 0. -/
def bin (g : Fin 2 → Fin 784 → EReal) : EReal :=
  Ideal.sqrt (∑ k : Fin 2, (g k 29 - g k 0) * (g k 29 - g k 0))
/-- Whether the pair `(n, m)` is near at bin width `w`. -/
def near (w : EReal) (n m : Fin 784) : BitVec 1 := Ideal.cmp .ole (Ideal.div (dist g1 g2 n m) w) thr
/-- A batch entry's sum of similarities over its near pairs. -/
def psum (w : EReal) : EReal := ∑ n : Fin 784, ∑ m : Fin 784, sim a b n m * ind (near g1 g2 w n m)
/-- A batch entry's number of near pairs. -/
def pcnt (w : EReal) : EReal := ∑ n : Fin 784, ∑ m : Fin 784, ind (near g1 g2 w n m)

end PerBatch

/-- The loss, from the six arrays read through coordinates: the first view pairs `y1` with `z2` at the first
    grid's bin width, the second pairs `y2` with `z1` at the second grid's. -/
def loss (y1 z2 y2 z1 : Fin 64 → Fin 256 → Fin 784 → EReal) (G1 G2 : Fin 64 → Fin 2 → Fin 784 → EReal) : EReal :=
  neg1 * (Ideal.div (∑ t : Fin 64, psum (y1 t) (z2 t) (G1 t) (G2 t) (bin (G1 t)))
                    (∑ t : Fin 64, pcnt (G1 t) (G2 t) (bin (G1 t)))
        + Ideal.div (∑ t : Fin 64, psum (y2 t) (z1 t) (G1 t) (G2 t) (bin (G2 t)))
                    (∑ t : Fin 64, pcnt (G1 t) (G2 t) (bin (G2 t))))

/-- The four per-entry quantities laid out on lanes 0 to 3 of a 128-lane row, zero elsewhere. -/
def lanes (s1 c1 s2 c2 : EReal) (l : Fin 128) : EReal :=
  if l.val = 0 then s1 else if l.val = 1 then c1 else if l.val = 2 then s2 else if l.val = 3 then c2 else 0

end Cert.Spec

end
-- ==== Proof.FinalIdeal.lean ====
/-
  The host lines after the kernel, read over the extended reals: each of the four lanes is cut out of the row as a
  one-entry array and viewed as a scalar, which is that lane's entry; the quotients and the final product are the
  textbook ones.
-/
import proofs.«124999_j40063454937742_1_alg».proof.Proof.Final
import proofs.«124999_j40063454937742_1_alg».proof.Proof.Spec
import Idealize.ShloMosaic.Lib.ValueIdx
import Idealize.ShloMosaic.PureOps.Ideal.Laws

noncomputable section
open Idealize.ShloMosaic Idealize.ShloMosaic.TcCoe Idealize.SL.Sem Idealize.ShloMosaic.ValueIdx

namespace Cert.KernelIdeal.FinalIdeal
open Cert.KernelIdeal Cert.KernelIdeal.Gen Cert.KernelIdeal.Chain Cert.KernelIdeal.Final Cert.Spec

/-- A lane of the row, cut out as a one-entry array and viewed as a scalar, is that lane's entry. -/
theorem lane_apply (a : FVec Ideal S1x128 .f32) (p : ℕ) (l : Fin 128) (hl : l.val = p) (h : S1x128.Slices ![0, p] S1x1)
    (i : S_.Idx) :
    shapeCast S_ (extractStridedSlice S1x1 ![0, p] a h) shapeCasts_S1x1_S_ i = a (ix2 (0 : Fin 1) l) := by
  refine (shapeCast_apply _ shapeCasts_S1x1_S_ i (ix2 (0 : Fin 1) (0 : Fin 1)) ?_).trans ?_
  · rw [Shape.rowMajor_val_two]; rfl
  · refine extractStridedSlice_apply _ a h _ (ix2 (0 : Fin 1) l) fun b => ?_
    match b with
    | ⟨0, _⟩ => rfl
    | ⟨1, _⟩ => show l.val = p + 0; omega

theorem tail_apply (a : FVec Ideal S1x128 .f32) (i : S_.Idx) :
    tail (F := Ideal) a i
      = neg1 * (Ideal.div (a (ix2 (0 : Fin 1) (0 : Fin 128))) (a (ix2 (0 : Fin 1) (1 : Fin 128)))
              + Ideal.div (a (ix2 (0 : Fin 1) (2 : Fin 128))) (a (ix2 (0 : Fin 1) (3 : Fin 128)))) := by
  unfold tail
  show Ideal.ofBits .f32 0xBF800000#32 * (Ideal.div _ _ + Ideal.div _ _) = _
  rw [lane_apply a 0 (0 : Fin 128) rfl, lane_apply a 1 (1 : Fin 128) rfl, lane_apply a 2 (2 : Fin 128) rfl, lane_apply a 3 (3 : Fin 128) rfl]
  rfl

end Cert.KernelIdeal.FinalIdeal
end
-- ==== Proof.RefSpec.lean ====
/-
  The reference program's result, read over the extended reals, is the coordinate-level loss of the specification.

  Each intermediate array of the reference is read at an entry given by its coordinates and identified with the
  matching per-entry quantity of the specification: the channel dot products, the column norms, the cosine
  similarity, the grid distance, the two bin widths, the two near-pair masks; then the four total sums over all
  64 × 784 × 784 entries are regrouped as sums over the batch of the per-entry double sums.
-/
import proofs.«124999_j40063454937742_1_alg».proof.Proof.Gen.ReferenceIdeal.Read
import proofs.«124999_j40063454937742_1_alg».proof.Proof.Spec
import Idealize.ShloMosaic.Lib.ValueIdx
import Idealize.ShloMosaic.PureOps.Ideal.Laws

noncomputable section

open scoped BigOperators

namespace Cert.ReferenceIdeal.RefSpec

open Cert.ReferenceIdeal Cert.ReferenceIdeal.Read Cert.Spec Idealize.ShloMosaic Idealize.ShloMosaic.ValueIdx

/-- The four feature arrays' type and the two grids' type, entries read as extended reals. -/
abbrev Feat := (⟨S64x256x28x28, .f32⟩ : BufTy).Contents (Elt Ideal)
abbrev Grid := (⟨S64x2x28x28, .f32⟩ : BufTy).Contents (Elt Ideal)

/-! ## The cosine similarity -/

/-- The contraction over the channel axis, at entry `(b, n, m)`, is the dot product of column `n` of the left
    operand's batch entry `b` and column `m` of the right operand's. -/
theorem num_eq (x0 x3 : Feat) (b : Fin 64) (n m : Fin 784) :
    val_main_v50 (F := Ideal) x0 x3 (ix3 b n m)
      = dotc (arr3 (val_main_v0 (F := Ideal) x0) b) (arr3 (val_main_v3 (F := Ideal) x3) b) n m := by
  rw [val_main_v50_apply]
  refine Finset.sum_congr rfl fun k _ => ?_
  have el : lidx_main_v50 (ix3 b n m) k = ix3 b k n :=
    funext fun a => by match a with | ⟨0, _⟩ => rfl | ⟨1, _⟩ => rfl | ⟨2, _⟩ => rfl
  have er : ridx_main_v50 (ix3 b n m) k = ix3 b k m :=
    funext fun a => by match a with | ⟨0, _⟩ => rfl | ⟨1, _⟩ => rfl | ⟨2, _⟩ => rfl
  rw [el, er]
  rfl

/-- The square root of the sum over the channels of the squares, at `(b, n)`, is the norm of column `n`. -/
theorem nrm_eq (x0 : Feat) (b : Fin 64) (n : Fin 784) :
    val_main_v51 (F := Ideal) x0 (ix2 b n) = nrm (arr3 (val_main_v0 (F := Ideal) x0) b) n := by
  rw [val_main_v51_apply, val_main_call2_v1_apply, val_main_call2_cst_apply, Ideal.ofBits_def, Ideal.ofBits_zero_f32,
    zero_add, Ideal.hostUnary_sqrt_def]
  refine congrArg Ideal.sqrt (Finset.sum_congr rfl fun k _ => ?_)
  have e : idx_main_call2_v1 (ix2 b n) k = ix3 b k n :=
    funext fun a => by match a with | ⟨0, _⟩ => rfl | ⟨1, _⟩ => rfl | ⟨2, _⟩ => rfl
  rw [e]
  rfl

/-- The same for the second operand of the first view: its reshape and its norm are the same functions. -/
theorem nrm_eq' (x3 : Feat) (b : Fin 64) (m : Fin 784) :
    val_main_v52 (F := Ideal) x3 (ix2 b m) = nrm (arr3 (val_main_v3 (F := Ideal) x3) b) m :=
  nrm_eq x3 b m

/-- The quotient of the dot product by the larger of the product of the two norms and the small constant, at
    `(b, n, m)`, is the cosine similarity. -/
theorem sim_eq (x0 x3 : Feat) (b : Fin 64) (n m : Fin 784) :
    val_main_v60 (F := Ideal) x0 x3 (ix3 b n m)
      = sim (arr3 (val_main_v0 (F := Ideal) x0) b) (arr3 (val_main_v3 (F := Ideal) x3) b) n m := by
  have e55 : idx_main_v53 (idx_main_v55 (ix3 b n m)) = ix2 b n :=
    funext fun a => by match a with | ⟨0, _⟩ => rfl | ⟨1, _⟩ => rfl
  have e56 : idx_main_v54 (idx_main_v56 (ix3 b n m)) = ix2 b m :=
    funext fun a => by match a with | ⟨0, _⟩ => rfl | ⟨1, _⟩ => rfl
  rw [val_main_v60_apply, val_main_v59_apply, val_main_v57_apply, val_main_v55_apply, val_main_v53_apply,
    val_main_v56_apply, val_main_v54_apply, val_main_v58_apply, val_main_cst_1_apply, e55, e56, nrm_eq, nrm_eq',
    num_eq]
  rfl

/-! ## The grid distance -/

/-- Row 0 of the first grid's batch entry, spread along the last axis: entry `(b, n, m)` is the grid's `(0, n)`. -/
theorem row0_left (x4 : Grid) (b : Fin 64) (n m : Fin 784) :
    val_main_v12 (F := Ideal) x4 (ix3 b n m) = arr3 (val_main_v4 (F := Ideal) x4) b 0 n := by
  have e : idx_main_v6 (idx_main_v7 (idx_main_v8 (idx_main_v12 (ix3 b n m)))) = ix3 b 0 n := by
    funext a
    apply Fin.ext
    have hb := b.isLt
    have hn := n.isLt
    match a with
    | ⟨0, _⟩ => show (b.val * 784 + n.val) / 784 = b.val; omega
    | ⟨1, _⟩ => rfl
    | ⟨2, _⟩ => show (b.val * 784 + n.val) % 784 = n.val; omega
  rw [val_main_v12_apply, val_main_v8_apply, val_main_v7_apply, val_main_v6_apply, e]
  rfl

/-- Row 0 of the second grid's batch entry, spread along the middle axis: entry `(b, n, m)` is the grid's `(0, m)`. -/
theorem row0_right (x5 : Grid) (b : Fin 64) (n m : Fin 784) :
    val_main_v13 (F := Ideal) x5 (ix3 b n m) = arr3 (val_main_v5 (F := Ideal) x5) b 0 m := by
  have e : idx_main_v9 (idx_main_v10 (idx_main_v11 (idx_main_v13 (ix3 b n m)))) = ix3 b 0 m := by
    funext a
    apply Fin.ext
    have hb := b.isLt
    have hm := m.isLt
    match a with
    | ⟨0, _⟩ => show (b.val * 784 + m.val) / 784 = b.val; omega
    | ⟨1, _⟩ => rfl
    | ⟨2, _⟩ => show (b.val * 784 + m.val) % 784 = m.val; omega
  rw [val_main_v13_apply, val_main_v11_apply, val_main_v10_apply, val_main_v9_apply, e]
  rfl

/-- Row 1 of the first grid's batch entry, spread along the last axis. -/
theorem row1_left (x4 : Grid) (b : Fin 64) (n m : Fin 784) :
    val_main_v21 (F := Ideal) x4 (ix3 b n m) = arr3 (val_main_v4 (F := Ideal) x4) b 1 n := by
  have e : idx_main_v15 (idx_main_v16 (idx_main_v17 (idx_main_v21 (ix3 b n m)))) = ix3 b 1 n := by
    funext a
    apply Fin.ext
    have hb := b.isLt
    have hn := n.isLt
    match a with
    | ⟨0, _⟩ => show (b.val * 784 + n.val) / 784 = b.val; omega
    | ⟨1, _⟩ => rfl
    | ⟨2, _⟩ => show (b.val * 784 + n.val) % 784 = n.val; omega
  rw [val_main_v21_apply, val_main_v17_apply, val_main_v16_apply, val_main_v15_apply, e]
  rfl

/-- Row 1 of the second grid's batch entry, spread along the middle axis. -/
theorem row1_right (x5 : Grid) (b : Fin 64) (n m : Fin 784) :
    val_main_v22 (F := Ideal) x5 (ix3 b n m) = arr3 (val_main_v5 (F := Ideal) x5) b 1 m := by
  have e : idx_main_v18 (idx_main_v19 (idx_main_v20 (idx_main_v22 (ix3 b n m)))) = ix3 b 1 m := by
    funext a
    apply Fin.ext
    have hb := b.isLt
    have hm := m.isLt
    match a with
    | ⟨0, _⟩ => show (b.val * 784 + m.val) / 784 = b.val; omega
    | ⟨1, _⟩ => rfl
    | ⟨2, _⟩ => show (b.val * 784 + m.val) % 784 = m.val; omega
  rw [val_main_v22_apply, val_main_v20_apply, val_main_v19_apply, val_main_v18_apply, e]
  rfl

/-- The square root of the sum of the two squared coordinate differences, at `(b, n, m)`, is the distance of the
    first grid's position `n` and the second's `m`. -/
theorem dist_eq (x4 x5 : Grid) (b : Fin 64) (n m : Fin 784) :
    val_main_v27 (F := Ideal) x4 x5 (ix3 b n m)
      = dist (arr3 (val_main_v4 (F := Ideal) x4) b) (arr3 (val_main_v5 (F := Ideal) x5) b) n m := by
  rw [val_main_v27_apply, val_main_v26_apply, val_main_v24_apply, val_main_v25_apply, val_main_v14_apply,
    val_main_v23_apply, row0_left, row0_right, row1_left, row1_right]
  rfl

/-! ## The bin widths -/

/-- The reshaped grid at flat position 29 of row `k` is the grid at `(k, 1, 1)`: `29 = 1 · 28 + 1`. -/
theorem grid_at_29 (x4 : Grid) (b : Fin 64) (k : Fin 2) :
    val_main_v4 (F := Ideal) x4 (ix3 b k (29 : Fin 784)) = x4 (ix4 b k 1 1) := by
  have e : idx_main_v4 (ix3 b k (29 : Fin 784)) = ix4 b k 1 1 := by
    funext a
    apply Fin.ext
    have hb := b.isLt
    have hk := k.isLt
    match a with
    | ⟨0, _⟩ => show ((b.val * 2 + k.val) * 784 + 29) / 1568 = b.val; omega
    | ⟨1, _⟩ => show ((b.val * 2 + k.val) * 784 + 29) / 784 % 2 = k.val; omega
    | ⟨2, _⟩ => show ((b.val * 2 + k.val) * 784 + 29) / 28 % 28 = 1; omega
    | ⟨3, _⟩ => show ((b.val * 2 + k.val) * 784 + 29) % 28 = 1; omega
  rw [val_main_v4_apply, e]

/-- The reshaped grid at flat position 0 of row `k` is the grid at `(k, 0, 0)`. -/
theorem grid_at_0 (x4 : Grid) (b : Fin 64) (k : Fin 2) :
    val_main_v4 (F := Ideal) x4 (ix3 b k (0 : Fin 784)) = x4 (ix4 b k 0 0) := by
  have e : idx_main_v4 (ix3 b k (0 : Fin 784)) = ix4 b k 0 0 := by
    funext a
    apply Fin.ext
    have hb := b.isLt
    have hk := k.isLt
    match a with
    | ⟨0, _⟩ => show ((b.val * 2 + k.val) * 784 + 0) / 1568 = b.val; omega
    | ⟨1, _⟩ => show ((b.val * 2 + k.val) * 784 + 0) / 784 % 2 = k.val; omega
    | ⟨2, _⟩ => show ((b.val * 2 + k.val) * 784 + 0) / 28 % 28 = 0; omega
    | ⟨3, _⟩ => show ((b.val * 2 + k.val) * 784 + 0) % 28 = 0; omega
  rw [val_main_v4_apply, e]

/-- The grid's slice at `(·, ·, 1, 1)`, flattened to `[64, 2]`, at `(b, k)`. -/
theorem slice11 (x4 : Grid) (b : Fin 64) (k : Fin 2) :
    val_main_v29 (F := Ideal) x4 (ix2 b k) = x4 (ix4 b k 1 1) := by
  have e : idx_main_v28 (idx_main_v29 (ix2 b k)) = ix4 b k 1 1 := by
    funext a
    apply Fin.ext
    have hb := b.isLt
    have hk := k.isLt
    match a with
    | ⟨0, _⟩ => show (b.val * 2 + k.val) / 2 = b.val; omega
    | ⟨1, _⟩ => show (b.val * 2 + k.val) / 1 % 2 = k.val; omega
    | ⟨2, _⟩ => rfl
    | ⟨3, _⟩ => rfl
  rw [val_main_v29_apply, val_main_v28_apply, e]

/-- The grid's slice at `(·, ·, 0, 0)`, flattened to `[64, 2]`, at `(b, k)`. -/
theorem slice00 (x4 : Grid) (b : Fin 64) (k : Fin 2) :
    val_main_v31 (F := Ideal) x4 (ix2 b k) = x4 (ix4 b k 0 0) := by
  have e : idx_main_v30 (idx_main_v31 (ix2 b k)) = ix4 b k 0 0 := by
    funext a
    apply Fin.ext
    have hb := b.isLt
    have hk := k.isLt
    match a with
    | ⟨0, _⟩ => show (b.val * 2 + k.val) / 2 = b.val; omega
    | ⟨1, _⟩ => show (b.val * 2 + k.val) / 1 % 2 = k.val; omega
    | ⟨2, _⟩ => rfl
    | ⟨3, _⟩ => rfl
  rw [val_main_v31_apply, val_main_v30_apply, e]

/-- The norm over the two rows of the difference of the grid at `(1, 1)` and at `(0, 0)` is the view's bin width. -/
theorem bin_eq (x4 : Grid) (b : Fin 64) :
    val_main_v33 (F := Ideal) x4 (ix1 b) = bin (arr3 (val_main_v4 (F := Ideal) x4) b) := by
  rw [val_main_v33_apply, val_main_call0_v1_apply, val_main_call0_cst_apply, Ideal.ofBits_def, Ideal.ofBits_zero_f32,
    zero_add, Ideal.hostUnary_sqrt_def]
  refine congrArg Ideal.sqrt (Finset.sum_congr rfl fun k _ => ?_)
  have e : idx_main_call0_v1 (ix1 b) k = ix2 b k :=
    funext fun a => by match a with | ⟨0, _⟩ => rfl | ⟨1, _⟩ => rfl
  rw [e, val_main_call0_v0_apply, val_main_v32_apply, slice11, slice00]
  show _ = (val_main_v4 (F := Ideal) x4 (ix3 b k (29 : Fin 784)) - val_main_v4 (F := Ideal) x4 (ix3 b k (0 : Fin 784)))
    * (val_main_v4 (F := Ideal) x4 (ix3 b k (29 : Fin 784)) - val_main_v4 (F := Ideal) x4 (ix3 b k (0 : Fin 784)))
  rw [grid_at_29, grid_at_0]
  rfl

/-- The second view's bin width: the same operations applied to the second grid. -/
theorem bin_eq' (x5 : Grid) (b : Fin 64) :
    val_main_v39 (F := Ideal) x5 (ix1 b) = bin (arr3 (val_main_v5 (F := Ideal) x5) b) :=
  bin_eq x5 b

/-! ## The near-pair masks -/

/-- The first bin width spread over `[64, 784, 784]`: entry `(b, n, m)` is batch entry `b`'s width. -/
theorem width1 (x4 : Grid) (b : Fin 64) (n m : Fin 784) :
    val_main_v41 (F := Ideal) x4 (ix3 b n m) = bin (arr3 (val_main_v4 (F := Ideal) x4) b) := by
  have e : idx_main_v40 (idx_main_v41 (ix3 b n m)) = ix1 b :=
    funext fun a => by match a with | ⟨0, _⟩ => rfl
  rw [val_main_v41_apply, val_main_v40_apply, e, bin_eq]

/-- The second bin width spread over `[64, 784, 784]`. -/
theorem width2 (x5 : Grid) (b : Fin 64) (n m : Fin 784) :
    val_main_v46 (F := Ideal) x5 (ix3 b n m) = bin (arr3 (val_main_v5 (F := Ideal) x5) b) :=
  width1 x5 b n m

/-- The comparison of the distance scaled by the first bin width with the threshold is the first view's mask. -/
theorem near1_eq (x4 x5 : Grid) (b : Fin 64) (n m : Fin 784) :
    val_main_v44 (F := Ideal) x4 x5 (ix3 b n m)
      = near (arr3 (val_main_v4 (F := Ideal) x4) b) (arr3 (val_main_v5 (F := Ideal) x5) b)
          (bin (arr3 (val_main_v4 (F := Ideal) x4) b)) n m := by
  rw [val_main_v44_apply, val_main_v42_apply, val_main_v43_apply, val_main_cst_apply, dist_eq, width1]
  rfl

/-- The comparison of the distance scaled by the second bin width with the threshold is the second view's mask. -/
theorem near2_eq (x4 x5 : Grid) (b : Fin 64) (n m : Fin 784) :
    val_main_v49 (F := Ideal) x4 x5 (ix3 b n m)
      = near (arr3 (val_main_v4 (F := Ideal) x4) b) (arr3 (val_main_v5 (F := Ideal) x5) b)
          (bin (arr3 (val_main_v5 (F := Ideal) x5) b)) n m := by
  rw [val_main_v49_apply, val_main_v47_apply, val_main_v48_apply, val_main_cst_0_apply, dist_eq, width2]
  rfl

/-- The second view's similarity: the same operations applied to the second pair of feature arrays. -/
theorem sim_eq' (x1 x2 : Feat) (b : Fin 64) (n m : Fin 784) :
    val_main_v76 (F := Ideal) x1 x2 (ix3 b n m)
      = sim (arr3 (val_main_v1 (F := Ideal) x1) b) (arr3 (val_main_v2 (F := Ideal) x2) b) n m :=
  sim_eq x1 x2 b n m

/-! ## The four totals -/

/-- The first view's total similarity over near pairs, regrouped by batch entry. -/
theorem tot_sum1 (x0 x3 : Feat) (x4 x5 : Grid) (i : S_.Idx) :
    val_main_v63 (F := Ideal) x0 x3 x4 x5 i
      = ∑ t : Fin 64, psum (arr3 (val_main_v0 (F := Ideal) x0) t) (arr3 (val_main_v3 (F := Ideal) x3) t)
          (arr3 (val_main_v4 (F := Ideal) x4) t) (arr3 (val_main_v5 (F := Ideal) x5) t)
          (bin (arr3 (val_main_v4 (F := Ideal) x4) t)) := by
  rw [val_main_v63_apply, val_main_cst_2_apply, Ideal.ofBits_def, Ideal.ofBits_zero_f32, zero_add, sum_idx3]
  refine Finset.sum_congr rfl fun b _ => ?_
  unfold psum
  refine Finset.sum_congr rfl fun n _ => Finset.sum_congr rfl fun m _ => ?_
  rw [val_main_v62_apply, val_main_v61_apply, sim_eq, near1_eq]
  rfl

/-- The first view's total number of near pairs, regrouped by batch entry. -/
theorem tot_cnt1 (x4 x5 : Grid) (i : S_.Idx) :
    val_main_v64 (F := Ideal) x4 x5 i
      = ∑ t : Fin 64, pcnt (arr3 (val_main_v4 (F := Ideal) x4) t) (arr3 (val_main_v5 (F := Ideal) x5) t)
          (bin (arr3 (val_main_v4 (F := Ideal) x4) t)) := by
  rw [val_main_v64_apply, val_main_cst_3_apply, Ideal.ofBits_def, Ideal.ofBits_zero_f32, zero_add, sum_idx3]
  refine Finset.sum_congr rfl fun b _ => ?_
  unfold pcnt
  refine Finset.sum_congr rfl fun n _ => Finset.sum_congr rfl fun m _ => ?_
  rw [val_main_v61_apply, near1_eq]
  rfl

/-- The second view's total similarity over near pairs, regrouped by batch entry. -/
theorem tot_sum2 (x1 x2 : Feat) (x4 x5 : Grid) (i : S_.Idx) :
    val_main_v79 (F := Ideal) x1 x2 x4 x5 i
      = ∑ t : Fin 64, psum (arr3 (val_main_v1 (F := Ideal) x1) t) (arr3 (val_main_v2 (F := Ideal) x2) t)
          (arr3 (val_main_v4 (F := Ideal) x4) t) (arr3 (val_main_v5 (F := Ideal) x5) t)
          (bin (arr3 (val_main_v5 (F := Ideal) x5) t)) := by
  rw [val_main_v79_apply, val_main_cst_5_apply, Ideal.ofBits_def, Ideal.ofBits_zero_f32, zero_add, sum_idx3]
  refine Finset.sum_congr rfl fun b _ => ?_
  unfold psum
  refine Finset.sum_congr rfl fun n _ => Finset.sum_congr rfl fun m _ => ?_
  rw [val_main_v78_apply, val_main_v77_apply, sim_eq', near2_eq]
  rfl

/-- The second view's total number of near pairs, regrouped by batch entry. -/
theorem tot_cnt2 (x4 x5 : Grid) (i : S_.Idx) :
    val_main_v80 (F := Ideal) x4 x5 i
      = ∑ t : Fin 64, pcnt (arr3 (val_main_v4 (F := Ideal) x4) t) (arr3 (val_main_v5 (F := Ideal) x5) t)
          (bin (arr3 (val_main_v5 (F := Ideal) x5) t)) := by
  rw [val_main_v80_apply, val_main_cst_6_apply, Ideal.ofBits_def, Ideal.ofBits_zero_f32, zero_add, sum_idx3]
  refine Finset.sum_congr rfl fun b _ => ?_
  unfold pcnt
  refine Finset.sum_congr rfl fun n _ => Finset.sum_congr rfl fun m _ => ?_
  rw [val_main_v77_apply, near2_eq]
  rfl

/-! ## The result -/

/-- The reference's result is the loss of the six reshaped arrays read through their coordinates. -/
theorem ref_eq (x0 x1 x2 x3 : (⟨S64x256x28x28, .f32⟩ : BufTy).Contents (Elt Ideal))
    (x4 x5 : (⟨S64x2x28x28, .f32⟩ : BufTy).Contents (Elt Ideal)) (i : S_.Idx) :
    val_main_v83 (F := Ideal) x0 x1 x2 x3 x4 x5 i
      = loss (arr3 (val_main_v0 (F := Ideal) x0)) (arr3 (val_main_v3 (F := Ideal) x3))
          (arr3 (val_main_v1 (F := Ideal) x1)) (arr3 (val_main_v2 (F := Ideal) x2))
          (arr3 (val_main_v4 (F := Ideal) x4)) (arr3 (val_main_v5 (F := Ideal) x5)) := by
  rw [val_main_v83_apply, val_main_v82_apply, val_main_v65_apply, val_main_v81_apply, val_main_cst_7_apply,
    tot_sum1, tot_cnt1, tot_sum2, tot_cnt2]
  rfl

end Cert.ReferenceIdeal.RefSpec

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.PointValue.lean ====
/-
  What one grid point adds to the running row of totals, read over the extended reals: each intermediate array of the
  point's arithmetic is read at an entry given by its coordinates, down to the coordinate-level quantities of the
  specification (dot products of columns, column norms, cosine similarities, grid distances, bin widths, the near
  mask, and the masked sums and counts), and the four totals land on lanes 0 to 3 of the 128-lane row.
-/
import proofs.«124999_j40063454937742_1_alg».proof.Proof.Step
import proofs.«124999_j40063454937742_1_alg».proof.Proof.Spec
import proofs.«124999_j40063454937742_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pt

open Cert.Spec Cert.LibKeepdims Idealize.ShloMosaic Idealize.ShloMosaic.ValueIdx Cert.KernelIdeal Cert.KernelIdeal.Gen

/-! ## Two more layout facts -/

/-- Over the extended reals, the sum of a `[a, b]` array along its first axis, started from the zero word, is at
    column `j` the sum over the rows `k` of the entries `(k, j)`. -/
theorem multiReduction_add_cols_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext ax
  apply Fin.ext
  match ax with
  | ⟨0, _⟩ => rfl
  | ⟨1, _⟩ => rfl

/-- The one entry of a one-entry vector, taken out at position 0. -/
theorem extractAt_one_apply {α : Type} (v : (⟨1, ![1]⟩ : Shape).Idx → α)
    (h : ∀ a, (![0] : Fin 1 → ℕ) a < (⟨1, ![1]⟩ : Shape).size a) :
    extractAt ![0] v h = v (ix1 (0 : Fin 1)) := by
  unfold extractAt
  refine congrArg v ?_
  funext ax
  apply Fin.ext
  match ax with
  | ⟨0, _⟩ => rfl

/-! ## The loaded blocks as two-axis arrays -/

theorem pay3_apply (x : Vec Ideal S1x256x784 .f32) (k : Fin 256) (n : Fin 784) :
    k0_pay3 (F := Ideal) x (ix2 k n) = arr3 x 0 k n :=
  shapeCast_1ab_ab_apply x _ k n

theorem pay4_apply (x : Vec Ideal S1x256x784 .f32) (k : Fin 256) (n : Fin 784) :
    k0_pay4 (F := Ideal) x (ix2 k n) = arr3 x 0 k n :=
  shapeCast_1ab_ab_apply x _ k n

theorem pay5_apply (x : Vec Ideal S1x256x784 .f32) (k : Fin 256) (n : Fin 784) :
    k0_pay5 (F := Ideal) x (ix2 k n) = arr3 x 0 k n :=
  shapeCast_1ab_ab_apply x _ k n

theorem pay6_apply (x : Vec Ideal S1x256x784 .f32) (k : Fin 256) (n : Fin 784) :
    k0_pay6 (F := Ideal) x (ix2 k n) = arr3 x 0 k n :=
  shapeCast_1ab_ab_apply x _ k n

theorem pay14_apply (x : Vec Ideal S1x2x784 .f32) (k : Fin 2) (n : Fin 784) :
    k0_pay14 (F := Ideal) x (ix2 k n) = arr3 x 0 k n :=
  shapeCast_1ab_ab_apply x _ k n

theorem pay15_apply (x : Vec Ideal S1x2x784 .f32) (k : Fin 2) (n : Fin 784) :
    k0_pay15 (F := Ideal) x (ix2 k n) = arr3 x 0 k n :=
  shapeCast_1ab_ab_apply x _ k n

/-! ## The two matrix products -/

/-- The product's dimension numbers contract the first axis of both operands: at result entry `i` and contraction
    position `q` the left operand's first coordinate is `q`'s … -/
theorem dot_lhs_0 (i : S784x784.Idx) (q : dot_S256x784_S256x784_S784x784_0_0_1_1_n_n.contr.Idx) :
    (dot_S256x784_S256x784_S784x784_0_0_1_1_n_n.lhsIdx i q 0).val = (q ⟨0, by decide⟩).val :=
  dot_S256x784_S256x784_S784x784_0_0_1_1_n_n.lhsIdx_val_of_single rfl i q
/-- … its second the result's first; -/
theorem dot_lhs_1 (i : S784x784.Idx) (q : dot_S256x784_S256x784_S784x784_0_0_1_1_n_n.contr.Idx) :
    (dot_S256x784_S256x784_S784x784_0_0_1_1_n_n.lhsIdx i q 1).val = (i 0).val := by
  unfold DotDims.lhsIdx
  rw [dif_neg (show ¬(1 : Fin S256x784.rank) ∈ dot_S256x784_S256x784_S784x784_0_0_1_1_n_n.lhsBatch by decide),
    dif_pos (show (1 : Fin S256x784.rank) ∈ dot_S256x784_S256x784_S784x784_0_0_1_1_n_n.lhsNonContracting by decide)]
  rfl
/-- the right operand's first coordinate is `q`'s … -/
theorem dot_rhs_0 (i : S784x784.Idx) (q : dot_S256x784_S256x784_S784x784_0_0_1_1_n_n.contr.Idx) :
    (dot_S256x784_S256x784_S784x784_0_0_1_1_n_n.rhsIdx i q 0).val = (q ⟨0, by decide⟩).val :=
  dot_S256x784_S256x784_S784x784_0_0_1_1_n_n.rhsIdx_val_of_single rfl i q
/-- … and its second the result's second. -/
theorem dot_rhs_1 (i : S784x784.Idx) (q : dot_S256x784_S256x784_S784x784_0_0_1_1_n_n.contr.Idx) :
    (dot_S256x784_S256x784_S784x784_0_0_1_1_n_n.rhsIdx i q 1).val = (i 1).val := by
  unfold DotDims.rhsIdx
  rw [dif_neg (show ¬(1 : Fin S256x784.rank) ∈ dot_S256x784_S256x784_S784x784_0_0_1_1_n_n.rhsBatch by decide),
    dif_pos (show (1 : Fin S256x784.rank) ∈ dot_S256x784_S256x784_S784x784_0_0_1_1_n_n.rhsNonContracting by decide)]
  rfl

/-- The product of two `[256, 784]` arrays over their first axes, into the zero array, is at `(n, m)` the dot
    product of column `n` of the first and column `m` of the second. -/
theorem matmul_cols_apply (A B : FVec Ideal S256x784 .bf16) (n m : Fin 784) :
    matmul dot_S256x784_S256x784_S784x784_0_0_1_1_n_n none A B (constant S784x784 .f32 0x00000000#32) (ix2 n m)
      = ∑ k : Fin 256, A (ix2 k n) * B (ix2 k m) := by
  refine (Ideal.matmul_constant_zero_apply dot_S256x784_S256x784_S784x784_0_0_1_1_n_n none A B (ix2 n m)).trans ?_
  rw [← Equiv.sum_comp (contrEquiv1 dot_S256x784_S256x784_S784x784_0_0_1_1_n_n 256 rfl rfl).symm]
  refine Finset.sum_congr rfl fun k _ => ?_
  have hk := contrEquiv1_symm_val dot_S256x784_S256x784_S784x784_0_0_1_1_n_n 256 rfl rfl k
  have el : dot_S256x784_S256x784_S784x784_0_0_1_1_n_n.lhsIdx (ix2 n m)
      ((contrEquiv1 dot_S256x784_S256x784_S784x784_0_0_1_1_n_n 256 rfl rfl).symm k) = ix2 k n :=
    funext fun a => Fin.ext (by
      match a with
      | ⟨0, _⟩ => exact (dot_lhs_0 _ _).trans hk
      | ⟨1, _⟩ => exact dot_lhs_1 _ _)
  have er : dot_S256x784_S256x784_S784x784_0_0_1_1_n_n.rhsIdx (ix2 n m)
      ((contrEquiv1 dot_S256x784_S256x784_S784x784_0_0_1_1_n_n 256 rfl rfl).symm k) = ix2 k m :=
    funext fun a => Fin.ext (by
      match a with
      | ⟨0, _⟩ => exact (dot_rhs_0 _ _).trans hk
      | ⟨1, _⟩ => exact dot_rhs_1 _ _)
  rw [el, er]

theorem pay7_apply (x0 x1 : Vec Ideal S1x256x784 .f32) (n m : Fin 784) :
    k0_pay7 (F := Ideal) x0 x1 (ix2 n m) = dotc (arr3 x0 0) (arr3 x1 0) n m := by
  unfold k0_pay7
  refine (matmul_cols_apply _ _ n m).trans ?_
  unfold dotc
  refine Finset.sum_congr rfl fun k _ => ?_
  rw [truncf_apply, truncf_apply, pay3_apply, pay4_apply]

theorem pay8_apply (x2 x3 : Vec Ideal S1x256x784 .f32) (n m : Fin 784) :
    k0_pay8 (F := Ideal) x2 x3 (ix2 n m) = dotc (arr3 x2 0) (arr3 x3 0) n m := by
  unfold k0_pay8
  refine (matmul_cols_apply _ _ n m).trans ?_
  unfold dotc
  refine Finset.sum_congr rfl fun k _ => ?_
  rw [truncf_apply, truncf_apply, pay5_apply, pay6_apply]

/-! ## Column norms, the denominators and the similarities -/

/-- The square root of the column sums of squares of a `[256, 784]` array is, at column `n`, the column's norm. -/
theorem colnorm_apply (A : FVec Ideal S256x784 .f32) (a : Fin 256 → Fin 784 → EReal)
    (hA : ∀ k n, A (ix2 k n) = a k n) (n : Fin 784) :
    sqrt (multiReduction .add [0] S784 (mulf A A) 0x00000000#32 reduces_S256x784_S784 (.inl rfl) rfl) (ix1 n)
      = nrm a n := by
  show Ideal.sqrt _ = _
  unfold nrm
  refine congrArg Ideal.sqrt ?_
  refine (multiReduction_add_cols_apply _ _ _ _ n).trans ?_
  refine Finset.sum_congr rfl fun k _ => ?_
  rw [mulf_apply, hA]

theorem pay9_apply (x : Vec Ideal S1x256x784 .f32) (m : Fin 784) :
    k0_pay9 (F := Ideal) x (ix1 m) = nrm (arr3 x 0) m :=
  colnorm_apply _ _ (pay6_apply x) m

theorem pay11_apply (x : Vec Ideal S1x256x784 .f32) (n : Fin 784) (u : Fin 1) :
    k0_pay11 (F := Ideal) x (ix2 n u) = nrm (arr3 x 0) n :=
  (shapeCast_a_a1_apply _ _ n u).trans (colnorm_apply _ _ (pay5_apply x) n)

/-- The small constant's word is the specification's constant. -/
theorem ofBits_eps : (Scalar.ofBits (F := Ideal) .f32 0x322BCC77#32 : EReal) = eps := rfl

theorem pay10_apply (x0 x1 : Vec Ideal S1x256x784 .f32) (n m : Fin 784) :
    k0_pay10 (F := Ideal) x0 x1 (ix2 n m) = max (nrm (arr3 x0 0) n * nrm (arr3 x1 0) m) eps := by
  unfold k0_pay10
  dsimp only
  rw [maximumf_apply, mulf_apply, broadcast_apply, broadcastTo_a1_ab_apply, broadcastTo_1b_ab_apply,
    shapeCast_a_a1_apply, shapeCast_a_1a_apply, colnorm_apply _ _ (pay3_apply x0), colnorm_apply _ _ (pay4_apply x1),
    ofBits_eps]

theorem sim1_apply (x0 x1 : Vec Ideal S1x256x784 .f32) (n m : Fin 784) :
    k0_pay12 (F := Ideal) (k0_pay7 x0 x1) (k0_pay10 x0 x1) (ix2 n m) = sim (arr3 x0 0) (arr3 x1 0) n m := by
  unfold k0_pay12 sim
  rw [divf_apply, pay7_apply, pay10_apply]

theorem sim2_apply (x2 x3 : Vec Ideal S1x256x784 .f32) (n m : Fin 784) :
    k0_pay13 (F := Ideal) (k0_pay8 x2 x3) (k0_pay9 x3) (k0_pay11 x2) (ix2 n m) = sim (arr3 x2 0) (arr3 x3 0) n m := by
  unfold k0_pay13 sim
  rw [divf_apply, maximumf_apply, mulf_apply, broadcast_apply, broadcastTo_a1_ab_apply, broadcastTo_1b_ab_apply,
    shapeCast_a_1a_apply, pay11_apply, pay9_apply, pay8_apply, ofBits_eps]

/-! ## Grid distances, bin widths and the near mask -/

/-- A square root at an index is the square root of the entry. -/
theorem sqrt_apply {s : Shape} {φ : FTy} (a : FVec Ideal s φ) (i : s.Idx) : sqrt a i = Ideal.sqrt (a i) := rfl

/-- Row `r` of a `[2, 784]` grid laid down the rows of a `[784, 784]` array reads, at `(n, m)`, the grid at `(r, n)`. -/
theorem gridrow_down_apply (G : FVec Ideal S2x784 .f32) (r : ℕ) (hr : r < 2) (h : S2x784.Slices ![r, 0] S1x784)
    (n m : Fin 784) :
    broadcastTo S784x784 (shapeCast S784x1 (shapeCast S784 (extractStridedSlice S1x784 ![r, 0] G h)
        shapeCasts_S1x784_S784) shapeCasts_S784_S784x1) broadcasts_S784x1_S784x784 (ix2 n m) = G (ix2 ⟨r, hr⟩ n) := by
  rw [broadcastTo_a1_ab_apply, shapeCast_a_a1_apply, shapeCast_1a_a_apply]
  exact slice2_axis0_apply r G h (0 : Fin 1) n ⟨r, hr⟩ rfl

/-- Row `r` of a `[2, 784]` grid laid across the columns of a `[784, 784]` array reads, at `(n, m)`, the grid at
    `(r, m)`. -/
theorem gridrow_across_apply (G : FVec Ideal S2x784 .f32) (r : ℕ) (hr : r < 2) (h : S2x784.Slices ![r, 0] S1x784)
    (n m : Fin 784) :
    broadcastTo S784x784 (shapeCast S1x784 (shapeCast S784 (extractStridedSlice S1x784 ![r, 0] G h)
        shapeCasts_S1x784_S784) shapeCasts_S784_S1x784) broadcasts_S1x784_S784x784 (ix2 n m) = G (ix2 ⟨r, hr⟩ m) := by
  rw [broadcastTo_1b_ab_apply, shapeCast_a_1a_apply, shapeCast_1a_a_apply]
  exact slice2_axis0_apply r G h (0 : Fin 1) m ⟨r, hr⟩ rfl

theorem pay16_apply (x4 x5 : Vec Ideal S1x2x784 .f32) (n m : Fin 784) :
    k0_pay16 (F := Ideal) x4 x5 (ix2 n m) = Spec.dist (arr3 x4 0) (arr3 x5 0) n m := by
  unfold k0_pay16 Spec.dist
  rw [sqrt_apply, addf_apply, mulf_apply, mulf_apply, subf_apply, subf_apply,
    gridrow_down_apply _ 0 (by decide), gridrow_down_apply _ 1 (by decide),
    gridrow_across_apply _ 0 (by decide), gridrow_across_apply _ 1 (by decide),
    pay14_apply, pay14_apply, pay15_apply, pay15_apply]
  rfl

theorem pay17_apply (x : Vec Ideal S1x2x784 .f32) : k0_pay17 (F := Ideal) x = bin (arr3 x 0) := by
  unfold k0_pay17 bin
  dsimp only
  rw [extractAt_one_apply, sqrt_apply]
  refine congrArg Ideal.sqrt ?_
  refine (multiReduction_add_cols_apply _ _ _ _ (0 : Fin 1)).trans ?_
  refine Finset.sum_congr rfl fun k _ => ?_
  rw [mulf_apply, subf_apply, slice2_axis1_apply 29 _ _ k (0 : Fin 1) (29 : Fin 784) rfl,
    slice2_axis1_apply 0 _ _ k (0 : Fin 1) (0 : Fin 784) rfl, pay15_apply, pay15_apply]

/-- The scaled distances divide by the first grid's bin width, the same expression over the first grid. -/
theorem pay18_eq (x4 x5 : Vec Ideal S1x2x784 .f32) :
    k0_pay18 (F := Ideal) x4 x5 = divf (k0_pay16 x4 x5) (broadcast S784x784 (k0_pay17 x4)) := rfl

theorem pay18_apply (x4 x5 : Vec Ideal S1x2x784 .f32) (n m : Fin 784) :
    k0_pay18 (F := Ideal) x4 x5 (ix2 n m) = Ideal.div (Spec.dist (arr3 x4 0) (arr3 x5 0) n m) (bin (arr3 x4 0)) := by
  rw [pay18_eq, divf_apply, broadcast_apply, pay16_apply, pay17_apply]

/-- The threshold's word is the specification's threshold. -/
theorem ofBits_thr : (Scalar.ofBits (F := Ideal) .f32 0x3F333333#32 : EReal) = thr := rfl

theorem near1_apply (x4 x5 : Vec Ideal S1x2x784 .f32) (n m : Fin 784) :
    k0_pay19 (F := Ideal) (k0_pay18 x4 x5) (Scalar.ofBits .f32 0x3F333333#32) (ix2 n m)
      = near (arr3 x4 0) (arr3 x5 0) (bin (arr3 x4 0)) n m := by
  unfold k0_pay19 near
  rw [cmpf_apply, Ideal.cmpf_def, broadcast_apply, pay18_apply, ofBits_thr]

/-! ## The masked totals and the counts -/

/-- The total of a `[784, 784]` array kept where a mask is set — rows summed first, then the column of row sums —
    is the double sum of the entries times the mask's 0-or-1 number. -/
theorem masked_total_apply (M : IVec S784x784 1) (S : FVec Ideal S784x784 .f32)
    (s : Fin 784 → Fin 784 → EReal) (b : Fin 784 → Fin 784 → BitVec 1)
    (hS : ∀ n m, S (ix2 n m) = s n m) (hM : ∀ n m, M (ix2 n m) = b n m) :
    extractAt ![0] (multiReduction .add [0] S1 (shapeCast S784x1 (multiReduction .add [1] S784
        (select M S (broadcast S784x784 (Scalar.ofBits (F := Ideal) .f32 0x00000000#32))) 0x00000000#32
        reduces_S784x784_S784 (.inl rfl) rfl) shapeCasts_S784_S784x1) 0x00000000#32 reduces_S784x1_S1 (.inl rfl) rfl)
        inpos_S1_p0
      = ∑ n : Fin 784, ∑ m : Fin 784, s n m * ind (b n m) := by
  rw [extractAt_one_apply]
  refine (multiReduction_add_cols_apply _ _ _ _ (0 : Fin 1)).trans ?_
  refine Finset.sum_congr rfl fun n _ => ?_
  rw [shapeCast_a_a1_apply]
  refine (multiReduction_add_rows_apply _ _ _ _ n).trans ?_
  refine Finset.sum_congr rfl fun m _ => ?_
  rw [select_apply, broadcast_apply, hS, hM]
  show Scalar.select (b n m) (s n m) (Ideal.ofBits .f32 0x00000000#32) = _
  rw [Ideal.ofBits_zero_f32, select_eq_mul_ind]

/-- The total of a mask's bits, each widened to 32 bits and converted — rows first, then the column of row sums —
    is the double sum of the mask's 0-or-1 numbers. -/
theorem count_total_apply (M : IVec S784x784 1) (b : Fin 784 → Fin 784 → BitVec 1)
    (hM : ∀ n m, M (ix2 n m) = b n m) :
    extractAt ![0] (multiReduction .add [0] S1 (shapeCast S784x1 (multiReduction .add [1] S784
        (sitofp (F := Ideal) .f32 (extui 32 M natLt_1_32)) 0x00000000#32
        reduces_S784x784_S784 (.inl rfl) rfl) shapeCasts_S784_S784x1) 0x00000000#32 reduces_S784x1_S1 (.inl rfl) rfl)
        inpos_S1_p0
      = ∑ n : Fin 784, ∑ m : Fin 784, ind (b n m) := by
  rw [extractAt_one_apply]
  refine (multiReduction_add_cols_apply _ _ _ _ (0 : Fin 1)).trans ?_
  refine Finset.sum_congr rfl fun n _ => ?_
  rw [shapeCast_a_a1_apply]
  refine (multiReduction_add_rows_apply _ _ _ _ n).trans ?_
  refine Finset.sum_congr rfl fun m _ => ?_
  rw [sitofp_apply, extui_apply, hM]
  exact toInt_setWidth_eq_ind (b n m)

theorem pay20_apply (x0 x1 : Vec Ideal S1x256x784 .f32) (x4 x5 : Vec Ideal S1x2x784 .f32) :
    k0_pay20 (F := Ideal) (k0_pay12 (k0_pay7 x0 x1) (k0_pay10 x0 x1)) (k0_pay18 x4 x5) (Scalar.ofBits .f32 0x3F333333#32)
      = psum (arr3 x0 0) (arr3 x1 0) (arr3 x4 0) (arr3 x5 0) (bin (arr3 x4 0)) :=
  masked_total_apply _ _ _ _ (sim1_apply x0 x1) (near1_apply x4 x5)

theorem pay21_apply (x4 x5 : Vec Ideal S1x2x784 .f32) :
    k0_pay21 (F := Ideal) (k0_pay18 x4 x5) (Scalar.ofBits .f32 0x3F333333#32)
      = pcnt (arr3 x4 0) (arr3 x5 0) (bin (arr3 x4 0)) :=
  count_total_apply _ _ (near1_apply x4 x5)

/-! ## The lanes -/

/-- Choosing on "lane number is `c`", both written as 32-bit words, is the `if` on the lane number: both numbers are
    below `2 ^ 32`, so their words agree only when they do. -/
theorem select_lane {α : Type} (c : ℕ) (hc : c < 128) (l : Fin 128) (A B : α) :
    Scalar.select (IntOp.cmpi .eq (BitVec.ofNat 32 l.val) (BitVec.ofNat 32 c)) A B = if l.val = c then A else B := by
  by_cases h : l.val = c
  · have e : IntOp.cmpi .eq (BitVec.ofNat 32 l.val) (BitVec.ofNat 32 c) = 1#1 := by
      rw [h]; simp [IntOp.cmpi]
    rw [if_pos h, e, select_one]
  · have hne : BitVec.ofNat 32 l.val ≠ BitVec.ofNat 32 c := by
      intro e
      have e' := congrArg BitVec.toNat e
      rw [BitVec.toNat_ofNat, BitVec.toNat_ofNat] at e'
      have := l.isLt
      omega
    have e : IntOp.cmpi .eq (BitVec.ofNat 32 l.val) (BitVec.ofNat 32 c) = 0#1 := by
      show BitVec.ofBool (BitVec.ofNat 32 l.val == BitVec.ofNat 32 c) = 0#1
      rw [beq_eq_false_iff_ne.mpr hne]
      rfl
    rw [if_neg h, e, select_zero]

/-- The comparison of the lane numbers of a `[1, 128]` row with the number `c`, read at lane `l`. -/
theorem lane_mask_apply (c : ℕ) (l : Fin 128) :
    cmpi .eq (iota .tc S1x128 32 [1] iota_S1x128_d1_w32) (broadcast S1x128 (BitVec.ofNat 32 c)) (ix2 (0 : Fin 1) l)
      = IntOp.cmpi .eq (BitVec.ofNat 32 l.val) (BitVec.ofNat 32 c) := by
  show IntOp.cmpi .eq (iota .tc S1x128 32 [1] iota_S1x128_d1_w32 (ix2 (0 : Fin 1) l)) _ = _
  rw [iota_single_apply]
  rfl

theorem pay22_apply (l : Fin 128) :
    k0_pay22 (ix2 (0 : Fin 1) l) = IntOp.cmpi .eq (BitVec.ofNat 32 l.val) (BitVec.ofNat 32 0) :=
  lane_mask_apply 0 l

theorem pay23_apply (l : Fin 128) :
    k0_pay23 (ix2 (0 : Fin 1) l) = IntOp.cmpi .eq (BitVec.ofNat 32 l.val) (BitVec.ofNat 32 1) :=
  lane_mask_apply 1 l

/-- The second view's mask: the scaled distances divide by the second grid's bin width. -/
theorem near2_apply (x4 x5 : Vec Ideal S1x2x784 .f32) (n m : Fin 784) :
    cmpf .ole (divf (k0_pay16 (F := Ideal) x4 x5) (broadcast S784x784 (k0_pay17 x5)))
        (broadcast S784x784 (Scalar.ofBits (F := Ideal) .f32 0x3F333333#32)) (ix2 n m)
      = near (arr3 x4 0) (arr3 x5 0) (bin (arr3 x5 0)) n m := by
  unfold near
  rw [cmpf_apply, Ideal.cmpf_def, broadcast_apply, divf_apply, broadcast_apply, pay16_apply, pay17_apply, ofBits_thr]

/-- The second view's two totals on lanes 2 and 3 of a row that is zero elsewhere. -/
theorem pay24_apply (S V : FVec Ideal S784x784 .f32) (w : Ideal .f32)
    (s : Fin 784 → Fin 784 → EReal) (b : Fin 784 → Fin 784 → BitVec 1)
    (hS : ∀ n m, S (ix2 n m) = s n m)
    (hB : ∀ n m, cmpf .ole (divf V (broadcast S784x784 w))
        (broadcast S784x784 (Scalar.ofBits (F := Ideal) .f32 0x3F333333#32)) (ix2 n m) = b n m) (l : Fin 128) :
    k0_pay24 (F := Ideal) S V w (ix2 (0 : Fin 1) l)
      = if l.val = 2 then ∑ n : Fin 784, ∑ m : Fin 784, s n m * ind (b n m)
        else if l.val = 3 then ∑ n : Fin 784, ∑ m : Fin 784, ind (b n m) else 0 := by
  unfold k0_pay24
  rw [select_apply, select_apply, broadcast_apply, broadcast_apply, broadcast_apply, lane_mask_apply, lane_mask_apply,
    select_lane 2 (by decide), select_lane 3 (by decide), masked_total_apply _ _ s b hS hB, count_total_apply _ b hB]
  show (if l.val = 2 then _ else if l.val = 3 then _ else Ideal.ofBits .f32 0x00000000#32) = _
  rw [Ideal.ofBits_zero_f32]

/-! ## The point -/

/-- What one grid point adds to the running row: the first view's total similarity and count on lanes 0 and 1, the
    second view's on lanes 2 and 3, nothing on the other lanes. -/
theorem step_apply (acc : Vec Ideal S1x128 .f32) (x0 x1 x2 x3 : Vec Ideal S1x256x784 .f32) (x4 x5 : Vec Ideal S1x2x784 .f32)
    (l : Fin 128) :
    step (F := Ideal) acc x0 x1 x2 x3 x4 x5 (ix2 (0 : Fin 1) l)
      = acc (ix2 (0 : Fin 1) l)
        + lanes (psum (arr3 x0 0) (arr3 x1 0) (arr3 x4 0) (arr3 x5 0) (bin (arr3 x4 0)))
                (pcnt (arr3 x4 0) (arr3 x5 0) (bin (arr3 x4 0)))
                (psum (arr3 x2 0) (arr3 x3 0) (arr3 x4 0) (arr3 x5 0) (bin (arr3 x5 0)))
                (pcnt (arr3 x4 0) (arr3 x5 0) (bin (arr3 x5 0))) l := by
  unfold step k0_pay1
  rw [shapeCast_self, addf_apply, select_apply, select_apply, broadcast_apply, broadcast_apply, pay22_apply, pay23_apply,
    select_lane 0 (by decide), select_lane 1 (by decide), pay20_apply, pay21_apply,
    pay24_apply _ _ _ _ _ (sim2_apply x2 x3) (near2_apply x4 x5)]
  rfl

end Cert.KernelIdeal.Pt

end
-- ==== Proof.Totals.lean ====
/-
  The kernel's final row of totals, pushed through the loss formula, is the coordinate-level loss of the six reshaped
  argument arrays.

  The row after the last of the 64 grid points is the cleared row plus, point by point, each batch entry's four
  quantities on lanes 0 to 3; so lane 0 to 3 of the final row are the four sums over the batch entries.  Each point's
  blocks are the batch entry's slices of the reshaped arrays, read through their coordinates.
-/
import proofs.«124999_j40063454937742_1_alg».proof.Proof.Chain
import proofs.«124999_j40063454937742_1_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem

namespace Cert.KernelIdeal.Totals

open Cert.KernelIdeal Cert.KernelIdeal.Gen Cert.KernelIdeal.Pt Cert.KernelIdeal.Chain Cert.Spec
open Idealize.ShloMosaic.ValueIdx

variable (m : (ℓ : Loc nD τ sig) → Buf (Elt Ideal) ℓ)

/-- What one grid point adds, as the one-point fact about the update states it: the row before the point plus the
    point's four quantities on lanes 0 to 3. -/
def StepSpec : Prop := ∀ (acc : Vec Ideal S1x128 .f32) (x0 x1 x2 x3 : Vec Ideal S1x256x784 .f32) (x4 x5 : Vec Ideal S1x2x784 .f32) (l : Fin 128),
    Pt.step (F := Ideal) acc x0 x1 x2 x3 x4 x5 (ix2 (0 : Fin 1) l)
      = acc (ix2 (0 : Fin 1) l)
        + lanes (psum (arr3 x0 0) (arr3 x1 0) (arr3 x4 0) (arr3 x5 0) (bin (arr3 x4 0))) (pcnt (arr3 x4 0) (arr3 x5 0) (bin (arr3 x4 0)))
                (psum (arr3 x2 0) (arr3 x3 0) (arr3 x4 0) (arr3 x5 0) (bin (arr3 x5 0))) (pcnt (arr3 x4 0) (arr3 x5 0) (bin (arr3 x5 0))) l

/-! ## The arrays the windows read are the reshaped arguments -/

/-- Before the grid runs, `main_v0` holds the reshape of `main_arg0`. -/
theorem V_main_v0 (c : Dev nD) : (V m c main_v0 : S64x256x784.Idx → EReal)
    = shapeCast S64x256x784 (m ((c : Thread nD τ).loc main_arg0)) shapeCasts_S64x256x28x28_S64x256x784 := by
  show StableHlo.after hostOps0 (fun b => m (c, b)) (Proc.devRef .tc main_v0) = _
  after_results
  rfl

/-- Before the grid runs, `main_v3` holds the reshape of `main_arg3`. -/
theorem V_main_v3 (c : Dev nD) : (V m c main_v3 : S64x256x784.Idx → EReal)
    = shapeCast S64x256x784 (m ((c : Thread nD τ).loc main_arg3)) shapeCasts_S64x256x28x28_S64x256x784 := by
  show StableHlo.after hostOps0 (fun b => m (c, b)) (Proc.devRef .tc main_v3) = _
  after_results
  rfl

/-- Before the grid runs, `main_v1` holds the reshape of `main_arg1`. -/
theorem V_main_v1 (c : Dev nD) : (V m c main_v1 : S64x256x784.Idx → EReal)
    = shapeCast S64x256x784 (m ((c : Thread nD τ).loc main_arg1)) shapeCasts_S64x256x28x28_S64x256x784 := by
  show StableHlo.after hostOps0 (fun b => m (c, b)) (Proc.devRef .tc main_v1) = _
  after_results
  rfl

/-- Before the grid runs, `main_v2` holds the reshape of `main_arg2`. -/
theorem V_main_v2 (c : Dev nD) : (V m c main_v2 : S64x256x784.Idx → EReal)
    = shapeCast S64x256x784 (m ((c : Thread nD τ).loc main_arg2)) shapeCasts_S64x256x28x28_S64x256x784 := by
  show StableHlo.after hostOps0 (fun b => m (c, b)) (Proc.devRef .tc main_v2) = _
  after_results
  rfl

/-- Before the grid runs, `main_v4` holds the reshape of `main_arg4`. -/
theorem V_main_v4 (c : Dev nD) : (V m c main_v4 : S64x2x784.Idx → EReal)
    = shapeCast S64x2x784 (m ((c : Thread nD τ).loc main_arg4)) shapeCasts_S64x2x28x28_S64x2x784 := by
  show StableHlo.after hostOps0 (fun b => m (c, b)) (Proc.devRef .tc main_v4) = _
  after_results
  rfl

/-- Before the grid runs, `main_v5` holds the reshape of `main_arg5`. -/
theorem V_main_v5 (c : Dev nD) : (V m c main_v5 : S64x2x784.Idx → EReal)
    = shapeCast S64x2x784 (m ((c : Thread nD τ).loc main_arg5)) shapeCasts_S64x2x28x28_S64x2x784 := by
  show StableHlo.after hostOps0 (fun b => m (c, b)) (Proc.devRef .tc main_v5) = _
  after_results
  rfl

/-! ## A point's blocks are the batch entry's slices -/

/-- There are 64 grid points. -/
theorem lt64 (t : Fin cfg0.N) : t.val < 64 := lt_of_lt_of_eq t.isLt (show cfg0.N = 64 from N_0)

/-- Window 0's block index at point `t` is `(t, 0, 0)`. -/
theorem idx0 : ∀ t : Fin cfg0.N, win0_0.index t 0 = t.val ∧ win0_0.index t 1 = 0 ∧ win0_0.index t 2 = 0 :=
  (by decide +kernel : ∀ t : Fin grid0.N, _)

/-- Window 0's block at point `t`, at `(0, k, n)`, is its array at `(t, k, n)`: a block coordinate is the block
    index times the block extent plus the coordinate inside the block. -/
theorem iblk0 (c : Dev nD) (t : Fin cfg0.N) (k : Fin 256) (n : Fin 784) :
    (iblk m c 0 t : Vec Ideal S1x256x784 .f32) (ix3 (0 : Fin 1) k n) = V m c main_v0 (ix3 ⟨t.val, lt64 t⟩ k n) := by
  unfold iblk
  rw [View.read_apply]
  show V m c main_v0 _ = _
  refine congrArg (V m c main_v0) ?_
  funext a
  apply Fin.ext
  match a with
  | ⟨0, _⟩ => show win0_0.index t 0 * 1 + 1 * 0 = t.val; rw [(idx0 t).1]; omega
  | ⟨1, _⟩ => show win0_0.index t 1 * 256 + 1 * k.val = k.val; rw [(idx0 t).2.1]; omega
  | ⟨2, _⟩ => show win0_0.index t 2 * 784 + 1 * n.val = n.val; rw [(idx0 t).2.2]; omega

/-- So the block, read through coordinates, is batch entry `t` of the reshaped `main_arg0`. -/
theorem blk0 (c : Dev nD) (t : Fin cfg0.N) :
    arr3 (iblk m c 0 t : Vec Ideal S1x256x784 .f32) 0
      = arr3 (shapeCast S64x256x784 (m ((c : Thread nD τ).loc main_arg0)) shapeCasts_S64x256x28x28_S64x256x784) ⟨t.val, lt64 t⟩ := by
  funext k n
  exact (iblk0 m c t k n).trans (congrFun (V_main_v0 m c) _)

/-- Window 1's block index at point `t` is `(t, 0, 0)`. -/
theorem idx1 : ∀ t : Fin cfg0.N, win0_1.index t 0 = t.val ∧ win0_1.index t 1 = 0 ∧ win0_1.index t 2 = 0 :=
  (by decide +kernel : ∀ t : Fin grid0.N, _)

/-- Window 1's block at point `t`, at `(0, k, n)`, is its array at `(t, k, n)`: a block coordinate is the block
    index times the block extent plus the coordinate inside the block. -/
theorem iblk1 (c : Dev nD) (t : Fin cfg0.N) (k : Fin 256) (n : Fin 784) :
    (iblk m c 1 t : Vec Ideal S1x256x784 .f32) (ix3 (0 : Fin 1) k n) = V m c main_v3 (ix3 ⟨t.val, lt64 t⟩ k n) := by
  unfold iblk
  rw [View.read_apply]
  show V m c main_v3 _ = _
  refine congrArg (V m c main_v3) ?_
  funext a
  apply Fin.ext
  match a with
  | ⟨0, _⟩ => show win0_1.index t 0 * 1 + 1 * 0 = t.val; rw [(idx1 t).1]; omega
  | ⟨1, _⟩ => show win0_1.index t 1 * 256 + 1 * k.val = k.val; rw [(idx1 t).2.1]; omega
  | ⟨2, _⟩ => show win0_1.index t 2 * 784 + 1 * n.val = n.val; rw [(idx1 t).2.2]; omega

/-- So the block, read through coordinates, is batch entry `t` of the reshaped `main_arg3`. -/
theorem blk1 (c : Dev nD) (t : Fin cfg0.N) :
    arr3 (iblk m c 1 t : Vec Ideal S1x256x784 .f32) 0
      = arr3 (shapeCast S64x256x784 (m ((c : Thread nD τ).loc main_arg3)) shapeCasts_S64x256x28x28_S64x256x784) ⟨t.val, lt64 t⟩ := by
  funext k n
  exact (iblk1 m c t k n).trans (congrFun (V_main_v3 m c) _)

/-- Window 2's block index at point `t` is `(t, 0, 0)`. -/
theorem idx2 : ∀ t : Fin cfg0.N, win0_2.index t 0 = t.val ∧ win0_2.index t 1 = 0 ∧ win0_2.index t 2 = 0 :=
  (by decide +kernel : ∀ t : Fin grid0.N, _)

/-- Window 2's block at point `t`, at `(0, k, n)`, is its array at `(t, k, n)`: a block coordinate is the block
    index times the block extent plus the coordinate inside the block. -/
theorem iblk2 (c : Dev nD) (t : Fin cfg0.N) (k : Fin 256) (n : Fin 784) :
    (iblk m c 2 t : Vec Ideal S1x256x784 .f32) (ix3 (0 : Fin 1) k n) = V m c main_v1 (ix3 ⟨t.val, lt64 t⟩ k n) := by
  unfold iblk
  rw [View.read_apply]
  show V m c main_v1 _ = _
  refine congrArg (V m c main_v1) ?_
  funext a
  apply Fin.ext
  match a with
  | ⟨0, _⟩ => show win0_2.index t 0 * 1 + 1 * 0 = t.val; rw [(idx2 t).1]; omega
  | ⟨1, _⟩ => show win0_2.index t 1 * 256 + 1 * k.val = k.val; rw [(idx2 t).2.1]; omega
  | ⟨2, _⟩ => show win0_2.index t 2 * 784 + 1 * n.val = n.val; rw [(idx2 t).2.2]; omega

/-- So the block, read through coordinates, is batch entry `t` of the reshaped `main_arg1`. -/
theorem blk2 (c : Dev nD) (t : Fin cfg0.N) :
    arr3 (iblk m c 2 t : Vec Ideal S1x256x784 .f32) 0
      = arr3 (shapeCast S64x256x784 (m ((c : Thread nD τ).loc main_arg1)) shapeCasts_S64x256x28x28_S64x256x784) ⟨t.val, lt64 t⟩ := by
  funext k n
  exact (iblk2 m c t k n).trans (congrFun (V_main_v1 m c) _)

/-- Window 3's block index at point `t` is `(t, 0, 0)`. -/
theorem idx3 : ∀ t : Fin cfg0.N, win0_3.index t 0 = t.val ∧ win0_3.index t 1 = 0 ∧ win0_3.index t 2 = 0 :=
  (by decide +kernel : ∀ t : Fin grid0.N, _)

/-- Window 3's block at point `t`, at `(0, k, n)`, is its array at `(t, k, n)`: a block coordinate is the block
    index times the block extent plus the coordinate inside the block. -/
theorem iblk3 (c : Dev nD) (t : Fin cfg0.N) (k : Fin 256) (n : Fin 784) :
    (iblk m c 3 t : Vec Ideal S1x256x784 .f32) (ix3 (0 : Fin 1) k n) = V m c main_v2 (ix3 ⟨t.val, lt64 t⟩ k n) := by
  unfold iblk
  rw [View.read_apply]
  show V m c main_v2 _ = _
  refine congrArg (V m c main_v2) ?_
  funext a
  apply Fin.ext
  match a with
  | ⟨0, _⟩ => show win0_3.index t 0 * 1 + 1 * 0 = t.val; rw [(idx3 t).1]; omega
  | ⟨1, _⟩ => show win0_3.index t 1 * 256 + 1 * k.val = k.val; rw [(idx3 t).2.1]; omega
  | ⟨2, _⟩ => show win0_3.index t 2 * 784 + 1 * n.val = n.val; rw [(idx3 t).2.2]; omega

/-- So the block, read through coordinates, is batch entry `t` of the reshaped `main_arg2`. -/
theorem blk3 (c : Dev nD) (t : Fin cfg0.N) :
    arr3 (iblk m c 3 t : Vec Ideal S1x256x784 .f32) 0
      = arr3 (shapeCast S64x256x784 (m ((c : Thread nD τ).loc main_arg2)) shapeCasts_S64x256x28x28_S64x256x784) ⟨t.val, lt64 t⟩ := by
  funext k n
  exact (iblk3 m c t k n).trans (congrFun (V_main_v2 m c) _)

/-- Window 4's block index at point `t` is `(t, 0, 0)`. -/
theorem idx4 : ∀ t : Fin cfg0.N, win0_4.index t 0 = t.val ∧ win0_4.index t 1 = 0 ∧ win0_4.index t 2 = 0 :=
  (by decide +kernel : ∀ t : Fin grid0.N, _)

/-- Window 4's block at point `t`, at `(0, k, n)`, is its array at `(t, k, n)`: a block coordinate is the block
    index times the block extent plus the coordinate inside the block. -/
theorem iblk4 (c : Dev nD) (t : Fin cfg0.N) (k : Fin 2) (n : Fin 784) :
    (iblk m c 4 t : Vec Ideal S1x2x784 .f32) (ix3 (0 : Fin 1) k n) = V m c main_v4 (ix3 ⟨t.val, lt64 t⟩ k n) := by
  unfold iblk
  rw [View.read_apply]
  show V m c main_v4 _ = _
  refine congrArg (V m c main_v4) ?_
  funext a
  apply Fin.ext
  match a with
  | ⟨0, _⟩ => show win0_4.index t 0 * 1 + 1 * 0 = t.val; rw [(idx4 t).1]; omega
  | ⟨1, _⟩ => show win0_4.index t 1 * 2 + 1 * k.val = k.val; rw [(idx4 t).2.1]; omega
  | ⟨2, _⟩ => show win0_4.index t 2 * 784 + 1 * n.val = n.val; rw [(idx4 t).2.2]; omega

/-- So the block, read through coordinates, is batch entry `t` of the reshaped `main_arg4`. -/
theorem blk4 (c : Dev nD) (t : Fin cfg0.N) :
    arr3 (iblk m c 4 t : Vec Ideal S1x2x784 .f32) 0
      = arr3 (shapeCast S64x2x784 (m ((c : Thread nD τ).loc main_arg4)) shapeCasts_S64x2x28x28_S64x2x784) ⟨t.val, lt64 t⟩ := by
  funext k n
  exact (iblk4 m c t k n).trans (congrFun (V_main_v4 m c) _)

/-- Window 5's block index at point `t` is `(t, 0, 0)`. -/
theorem idx5 : ∀ t : Fin cfg0.N, win0_5.index t 0 = t.val ∧ win0_5.index t 1 = 0 ∧ win0_5.index t 2 = 0 :=
  (by decide +kernel : ∀ t : Fin grid0.N, _)

/-- Window 5's block at point `t`, at `(0, k, n)`, is its array at `(t, k, n)`: a block coordinate is the block
    index times the block extent plus the coordinate inside the block. -/
theorem iblk5 (c : Dev nD) (t : Fin cfg0.N) (k : Fin 2) (n : Fin 784) :
    (iblk m c 5 t : Vec Ideal S1x2x784 .f32) (ix3 (0 : Fin 1) k n) = V m c main_v5 (ix3 ⟨t.val, lt64 t⟩ k n) := by
  unfold iblk
  rw [View.read_apply]
  show V m c main_v5 _ = _
  refine congrArg (V m c main_v5) ?_
  funext a
  apply Fin.ext
  match a with
  | ⟨0, _⟩ => show win0_5.index t 0 * 1 + 1 * 0 = t.val; rw [(idx5 t).1]; omega
  | ⟨1, _⟩ => show win0_5.index t 1 * 2 + 1 * k.val = k.val; rw [(idx5 t).2.1]; omega
  | ⟨2, _⟩ => show win0_5.index t 2 * 784 + 1 * n.val = n.val; rw [(idx5 t).2.2]; omega

/-- So the block, read through coordinates, is batch entry `t` of the reshaped `main_arg5`. -/
theorem blk5 (c : Dev nD) (t : Fin cfg0.N) :
    arr3 (iblk m c 5 t : Vec Ideal S1x2x784 .f32) 0
      = arr3 (shapeCast S64x2x784 (m ((c : Thread nD τ).loc main_arg5)) shapeCasts_S64x2x28x28_S64x2x784) ⟨t.val, lt64 t⟩ := by
  funext k n
  exact (iblk5 m c t k n).trans (congrFun (V_main_v5 m c) _)

/-! ## The row after the last point is the sum over the points -/

/-- The cleared row is zero at every entry. -/
theorem zero_row (j : S1x128.Idx) : k0_pay2 (F := Ideal) j = 0 := by
  unfold k0_pay2
  rw [shapeCast_self, broadcast_apply]
  exact Ideal.ofBits_zero_f32

/-- What point `t` adds on lane `l`: its four quantities, from its six blocks read through coordinates. -/
def D (c : Dev nD) (t : Fin cfg0.N) (l : Fin 128) : EReal :=
  lanes
    (psum (arr3 (iblk m c 0 t : Vec Ideal S1x256x784 .f32) 0) (arr3 (iblk m c 1 t : Vec Ideal S1x256x784 .f32) 0)
      (arr3 (iblk m c 4 t : Vec Ideal S1x2x784 .f32) 0) (arr3 (iblk m c 5 t : Vec Ideal S1x2x784 .f32) 0)
      (bin (arr3 (iblk m c 4 t : Vec Ideal S1x2x784 .f32) 0)))
    (pcnt (arr3 (iblk m c 4 t : Vec Ideal S1x2x784 .f32) 0) (arr3 (iblk m c 5 t : Vec Ideal S1x2x784 .f32) 0)
      (bin (arr3 (iblk m c 4 t : Vec Ideal S1x2x784 .f32) 0)))
    (psum (arr3 (iblk m c 2 t : Vec Ideal S1x256x784 .f32) 0) (arr3 (iblk m c 3 t : Vec Ideal S1x256x784 .f32) 0)
      (arr3 (iblk m c 4 t : Vec Ideal S1x2x784 .f32) 0) (arr3 (iblk m c 5 t : Vec Ideal S1x2x784 .f32) 0)
      (bin (arr3 (iblk m c 5 t : Vec Ideal S1x2x784 .f32) 0)))
    (pcnt (arr3 (iblk m c 4 t : Vec Ideal S1x2x784 .f32) 0) (arr3 (iblk m c 5 t : Vec Ideal S1x2x784 .f32) 0)
      (bin (arr3 (iblk m c 5 t : Vec Ideal S1x2x784 .f32) 0)))
    l

/-- The same for every natural number, zero past the grid. -/
def Dn (c : Dev nD) (s : ℕ) (l : Fin 128) : EReal := if h : s < cfg0.N then D m c ⟨s, h⟩ l else 0

theorem Dn_of_lt (c : Dev nD) (l : Fin 128) {s : ℕ} (h : s < cfg0.N) : Dn m c s l = D m c ⟨s, h⟩ l := dif_pos h

/-- One point's update of a row, on lane `l`. -/
theorem step_at (hstep : StepSpec) (c : Dev nD) (acc : Vec Ideal S1x128 .f32) (t : Fin cfg0.N) (l : Fin 128) :
    stepAt m c acc t (ix2 (0 : Fin 1) l) = acc (ix2 (0 : Fin 1) l) + D m c t l :=
  hstep acc _ _ _ _ _ _ l

/-- The row after point `n`, on lane `l`, is the sum of what points `0` to `n` add: by induction on the point, from
    the cleared row. -/
theorem chain_sum (hstep : StepSpec) (c : Dev nD) (l : Fin 128) :
    ∀ (n : ℕ) (h : n < cfg0.N), chain m c n h (ix2 (0 : Fin 1) l) = ∑ s ∈ Finset.range (n + 1), Dn m c s l
  | 0, h => by
    show stepAt m c (k0_pay2 (F := Ideal)) ⟨0, h⟩ (ix2 (0 : Fin 1) l) = _
    rw [step_at m hstep, zero_row, zero_add, Finset.sum_range_one, Dn_of_lt m c l h]
  | n + 1, h => by
    show stepAt m c (chain m c n (Nat.lt_of_succ_lt h)) ⟨n + 1, h⟩ (ix2 (0 : Fin 1) l) = _
    rw [step_at m hstep, chain_sum hstep c l n (Nat.lt_of_succ_lt h), Finset.sum_range_succ _ (n + 1), Dn_of_lt m c l h]

/-- After the last point: the sum over the 64 batch entries. -/
theorem lane_sum (hstep : StepSpec) (c : Dev nD) (h : 63 < cfg0.N) (l : Fin 128) :
    chain m c 63 h (ix2 (0 : Fin 1) l)
      = ∑ t : Fin 64, D m c ⟨t.val, lt_of_lt_of_eq t.isLt (show 64 = cfg0.N from N_0.symm)⟩ l := by
  rw [chain_sum m hstep c l 63 h]
  show ∑ s ∈ Finset.range 64, Dn m c s l = _
  rw [Finset.sum_range]
  exact Finset.sum_congr rfl fun t _ => Dn_of_lt m c l _

/-! ## The loss -/

/-- The six reshaped argument arrays read through their coordinates. -/
abbrev A0 (c : Dev nD) : Fin 64 → Fin 256 → Fin 784 → EReal := (arr3 (shapeCast S64x256x784 (m ((c : Thread nD τ).loc main_arg0)) shapeCasts_S64x256x28x28_S64x256x784))
abbrev A1 (c : Dev nD) : Fin 64 → Fin 256 → Fin 784 → EReal := (arr3 (shapeCast S64x256x784 (m ((c : Thread nD τ).loc main_arg1)) shapeCasts_S64x256x28x28_S64x256x784))
abbrev A2 (c : Dev nD) : Fin 64 → Fin 256 → Fin 784 → EReal := (arr3 (shapeCast S64x256x784 (m ((c : Thread nD τ).loc main_arg2)) shapeCasts_S64x256x28x28_S64x256x784))
abbrev A3 (c : Dev nD) : Fin 64 → Fin 256 → Fin 784 → EReal := (arr3 (shapeCast S64x256x784 (m ((c : Thread nD τ).loc main_arg3)) shapeCasts_S64x256x28x28_S64x256x784))
abbrev A4 (c : Dev nD) : Fin 64 → Fin 2 → Fin 784 → EReal := (arr3 (shapeCast S64x2x784 (m ((c : Thread nD τ).loc main_arg4)) shapeCasts_S64x2x28x28_S64x2x784))
abbrev A5 (c : Dev nD) : Fin 64 → Fin 2 → Fin 784 → EReal := (arr3 (shapeCast S64x2x784 (m ((c : Thread nD τ).loc main_arg5)) shapeCasts_S64x2x28x28_S64x2x784))

/-- What point `t` adds, from batch entry `t` of the six reshaped arguments. -/
theorem D_eq (c : Dev nD) (t : Fin cfg0.N) (l : Fin 128) :
    D m c t l
      = lanes
          (psum (A0 m c ⟨t.val, lt64 t⟩) (A3 m c ⟨t.val, lt64 t⟩) (A4 m c ⟨t.val, lt64 t⟩) (A5 m c ⟨t.val, lt64 t⟩)
            (bin (A4 m c ⟨t.val, lt64 t⟩)))
          (pcnt (A4 m c ⟨t.val, lt64 t⟩) (A5 m c ⟨t.val, lt64 t⟩) (bin (A4 m c ⟨t.val, lt64 t⟩)))
          (psum (A1 m c ⟨t.val, lt64 t⟩) (A2 m c ⟨t.val, lt64 t⟩) (A4 m c ⟨t.val, lt64 t⟩) (A5 m c ⟨t.val, lt64 t⟩)
            (bin (A5 m c ⟨t.val, lt64 t⟩)))
          (pcnt (A4 m c ⟨t.val, lt64 t⟩) (A5 m c ⟨t.val, lt64 t⟩) (bin (A5 m c ⟨t.val, lt64 t⟩)))
          l := by
  unfold D
  rw [blk0, blk1, blk2, blk3, blk4, blk5]

theorem lanes_0 (s1 c1 s2 c2 : EReal) : lanes s1 c1 s2 c2 (0 : Fin 128) = s1 := rfl
theorem lanes_1 (s1 c1 s2 c2 : EReal) : lanes s1 c1 s2 c2 (1 : Fin 128) = c1 := rfl
theorem lanes_2 (s1 c1 s2 c2 : EReal) : lanes s1 c1 s2 c2 (2 : Fin 128) = s2 := rfl
theorem lanes_3 (s1 c1 s2 c2 : EReal) : lanes s1 c1 s2 c2 (3 : Fin 128) = c2 := rfl

/-- Lanes 0 to 3 of the final row are the four totals over the batch; the loss formula applied to them is the loss
    of the six reshaped arguments. -/
theorem row_loss (hstep : StepSpec) (c : Dev nD) (h : 63 < cfg0.N) :
    neg1 * (Ideal.div (chain m c 63 h (ix2 (0 : Fin 1) (0 : Fin 128))) (chain m c 63 h (ix2 (0 : Fin 1) (1 : Fin 128)))
            + Ideal.div (chain m c 63 h (ix2 (0 : Fin 1) (2 : Fin 128))) (chain m c 63 h (ix2 (0 : Fin 1) (3 : Fin 128))))
      = loss (arr3 (shapeCast S64x256x784 (m ((c : Thread nD τ).loc main_arg0)) shapeCasts_S64x256x28x28_S64x256x784))
             (arr3 (shapeCast S64x256x784 (m ((c : Thread nD τ).loc main_arg3)) shapeCasts_S64x256x28x28_S64x256x784))
             (arr3 (shapeCast S64x256x784 (m ((c : Thread nD τ).loc main_arg1)) shapeCasts_S64x256x28x28_S64x256x784))
             (arr3 (shapeCast S64x256x784 (m ((c : Thread nD τ).loc main_arg2)) shapeCasts_S64x256x28x28_S64x256x784))
             (arr3 (shapeCast S64x2x784 (m ((c : Thread nD τ).loc main_arg4)) shapeCasts_S64x2x28x28_S64x2x784))
             (arr3 (shapeCast S64x2x784 (m ((c : Thread nD τ).loc main_arg5)) shapeCasts_S64x2x28x28_S64x2x784)) := by
  rw [lane_sum m hstep c h 0, lane_sum m hstep c h 1, lane_sum m hstep c h 2, lane_sum m hstep c h 3]
  simp only [D_eq, lanes_0, lanes_1, lanes_2, lanes_3]
  rfl

end Cert.KernelIdeal.Totals

end
-- ==== Proof.lean ====
/-
  The certificate of a consistency loss: for two views of 64 batch entries, the masked mean of the pairwise cosine
  similarities of 784 feature columns — a pair of grid positions counts when its distance, scaled by the view's bin
  width, is at most a threshold — and the loss is minus the sum of the two means.

  The kernel takes one batch entry per grid point.  It forms the two 784 × 784 similarity arrays from products over
  the 256 channels, the pairwise grid distances and the two masks, sums each masked array and each mask to a
  number, places the four numbers on lanes 0 to 3 of a 128-lane row and adds that row to a running row, which the
  last point copies out; the host then forms minus (lane 0 / lane 1 + lane 2 / lane 3).  The reference computes the
  same four totals as single sums over all (entry, position, position) triples of the product of similarity and
  mask.  Over the extended reals the two agree: choosing x or zero on a bit is multiplying x by the bit (x · 1 = x,
  x · 0 = 0 with no exception), and sums may be regrouped freely since addition is commutative and associative;
  no finiteness of the inputs is used.

  The modules: Spec (the loss over coordinates), RefSpec (the reference's result is it), Step, PointValue (what one
  grid point adds, read over the extended reals), Pieces, Chain (the body's stores case by case, and the running
  row by induction on the point), Final, FinalIdeal (the result array after the run, the host lines after the
  kernel), Totals (the last row's lanes are the four totals).  The frames of the two kernel programs are the
  generated ones; the reference's is its generated run with the result dropped; the idealization rewrote nothing.
-/
import proofs.«124999_j40063454937742_1_alg».proof.Defs
import proofs.«124999_j40063454937742_1_alg».proof.Proof.Gen.Kernel
import proofs.«124999_j40063454937742_1_alg».proof.Proof.Gen.Kernel.Skeleton
import proofs.«124999_j40063454937742_1_alg».proof.Proof.Gen.Kernel.Launch
import proofs.«124999_j40063454937742_1_alg».proof.Proof.Gen.Kernel.Points
import proofs.«124999_j40063454937742_1_alg».proof.Proof.Gen.Kernel.Frame
import proofs.«124999_j40063454937742_1_alg».proof.Proof.Gen.KernelIdeal
import proofs.«124999_j40063454937742_1_alg».proof.Proof.Gen.KernelIdeal.Skeleton
import proofs.«124999_j40063454937742_1_alg».proof.Proof.Gen.KernelIdeal.Launch
import proofs.«124999_j40063454937742_1_alg».proof.Proof.Gen.KernelIdeal.Points
import proofs.«124999_j40063454937742_1_alg».proof.Proof.Gen.KernelIdeal.Frame
import proofs.«124999_j40063454937742_1_alg».proof.Proof.Gen.ReferenceIdeal
import proofs.«124999_j40063454937742_1_alg».proof.Proof.Gen.ReferenceIdeal.Run
import proofs.«124999_j40063454937742_1_alg».proof.Proof.Gen.ReferenceIdeal.Read
import proofs.«124999_j40063454937742_1_alg».proof.Proof.Gen.Pre_finite_inputs
import Idealize.ShloMosaic.Adequacy
import Idealize.ShloMosaic.Init
import proofs.«124999_j40063454937742_1_alg».proof.Proof.FinalIdeal
import proofs.«124999_j40063454937742_1_alg».proof.Proof.RefSpec
import proofs.«124999_j40063454937742_1_alg».proof.Proof.PointValue
import proofs.«124999_j40063454937742_1_alg».proof.Proof.Totals

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the six argument arrays, each reshaped to (entry, channel, position): the
    kernel's result is the host formula of its last running row, whose lanes are the four totals; the reference's
    result is the same formula of the same totals. -/
theorem algebraic : Cert.algebraic_KernelIdeal_ReferenceIdeal := by
  intro m ρ m' ρ' _ hagree
  refine ⟨_, Cert.KernelIdeal.Final.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v83_eq]
  funext i
  rw [Cert.ReferenceIdeal.RefSpec.ref_eq]
  refine Eq.trans ?_ ((Cert.KernelIdeal.FinalIdeal.tail_apply _ i).trans
    (Cert.KernelIdeal.Totals.row_loss m Cert.KernelIdeal.Pt.step_apply c Cert.KernelIdeal.Final.h63)).symm
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
